-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x4096 : Shape := ⟨3, ![16, 64, 4096]⟩
abbrev S65536x20x20 : Shape := ⟨3, ![65536, 20, 20]⟩
abbrev S64x1280 : Shape := ⟨2, ![64, 1280]⟩
abbrev S64 : Shape := ⟨1, ![64]⟩
abbrev S65536x20 : Shape := ⟨2, ![65536, 20]⟩
abbrev S_ : Shape := ⟨0, ![]⟩

class Facts : Prop where
  bcast_S_S16x64x4096 : S_.BroadcastsInDim S16x64x4096 (![] : Fin 0 → Fin S16x64x4096.rank)
  reducesTo_S16x64x4096_S_d0_1_2 : S16x64x4096.ReducesTo [0, 1, 2] S_
  h_S_ : 0 < S_.numel
  bcast_S_S65536x20x20 : S_.BroadcastsInDim S65536x20x20 (![] : Fin 0 → Fin S65536x20x20.rank)
  reducesTo_S65536x20x20_S_d0_1_2 : S65536x20x20.ReducesTo [0, 1, 2] S_
  bcast_S_S64x1280 : S_.BroadcastsInDim S64x1280 (![] : Fin 0 → Fin S64x1280.rank)
  reducesTo_S64x1280_S_d0_1 : S64x1280.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S16x64x4096 .f32) (main_arg1 : FVec F S65536x20x20 .f32) (main_arg2 : FVec F S64x1280 .f32) (main_arg3 : FVec F S64 .f32) (main_arg4 : FVec F S64 .f32) (main_arg5 : FVec F S64 .f32) (main_arg6 : IVec S65536x20 32) : IVec S_ 1 :=
  let main_v0 : FVec F S16x64x4096 .f32 := Host.absf main_arg0
  let main_cst : FVec F S_ .f32 := constant S_ .f32 0x7F800000#32
  let main_v1 : FVec F S16x64x4096 .f32 := broadcastInDim S16x64x4096 ![] bcast_S_S16x64x4096 main_cst
  let main_v2 : IVec S16x64x4096 1 := cmpf .olt main_v0 main_v1
  let main_c : IVec S_ 1 := constantI S_ 1 1#1
  let main_v3 : IVec S_ 1 := (fun x v => Host.reduce IntOp.andi x v reducesTo_S16x64x4096_S_d0_1_2 h_S_) main_v2 main_c
  let main_v4 : FVec F S65536x20x20 .f32 := Host.absf main_arg1
  let main_cst_0 : FVec F S_ .f32 := constant S_ .f32 0x7F800000#32
  let main_v5 : FVec F S65536x20x20 .f32 := broadcastInDim S65536x20x20 ![] bcast_S_S65536x20x20 main_cst_0
  let main_v6 : IVec S65536x20x20 1 := cmpf .olt main_v4 main_v5
  let main_c_1 : IVec S_ 1 := constantI S_ 1 1#1
  let main_v7 : IVec S_ 1 := (fun x v => Host.reduce IntOp.andi x v reducesTo_S65536x20x20_S_d0_1_2 h_S_) main_v6 main_c_1
  let main_v8 : IVec S_ 1 := andi main_v3 main_v7
  let main_v9 : FVec F S64x1280 .f32 := Host.absf main_arg2
  let main_cst_2 : FVec F S_ .f32 := constant S_ .f32 0x7F800000#32
  let main_v10 : FVec F S64x1280 .f32 := broadcastInDim S64x1280 ![] bcast_S_S64x1280 main_cst_2
  let main_v11 : IVec S64x1280 1 := cmpf .olt main_v9 main_v10
  let main_c_3 : IVec S_ 1 := constantI S_ 1 1#1
  let main_v12 : IVec S_ 1 := (fun x v => Host.reduce IntOp.andi x v reducesTo_S64x1280_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S16x64x4096 : Shape := ⟨3, ![16, 64, 4096]⟩
abbrev S65536x20x20 : Shape := ⟨3, ![65536, 20, 20]⟩
abbrev S64x1280 : Shape := ⟨2, ![64, 1280]⟩
abbrev S64 : Shape := ⟨1, ![64]⟩
abbrev S65536x20 : Shape := ⟨2, ![65536, 20]⟩
abbrev S16x4096x64 : Shape := ⟨3, ![16, 4096, 64]⟩
abbrev S65536x64 : Shape := ⟨2, ![65536, 64]⟩
abbrev S65536x4x16 : Shape := ⟨3, ![65536, 4, 16]⟩
abbrev S65536x16x4 : Shape := ⟨3, ![65536, 16, 4]⟩
abbrev S_ : Shape := ⟨0, ![]⟩
abbrev S65536x20x1 : Shape := ⟨3, ![65536, 20, 1]⟩
abbrev S65536x20x64 : Shape := ⟨3, ![65536, 20, 64]⟩
abbrev S1280x64 : Shape := ⟨2, ![1280, 64]⟩
abbrev S1x64 : Shape := ⟨2, ![1, 64]⟩
abbrev S512x20x64 : Shape := ⟨3, ![512, 20, 64]⟩
abbrev S512x20x20 : Shape := ⟨3, ![512, 20, 20]⟩
abbrev S512x64 : Shape := ⟨2, ![512, 64]⟩
abbrev S512x64x20 : Shape := ⟨3, ![512, 64, 20]⟩
abbrev S512x1280 : Shape := ⟨2, ![512, 1280]⟩
abbrev S1x64x1 : Shape := ⟨3, ![1, 64, 1]⟩

abbrev nBuf : Space → Nat
  | .hbm => 71
  | .vmem => 8
  | .smem => 0
  | _ => 0

abbrev bufTy : (tb : Table) → Fin (tcTables nBuf tb) → BufTy
  | .hbm, ⟨0, _⟩ => ⟨S16x64x4096, .f32⟩
  | .hbm, ⟨1, _⟩ => ⟨S65536x20x20, .f32⟩
  | .hbm, ⟨2, _⟩ => ⟨S64x1280, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S65536x20, .i32⟩
  | .hbm, ⟨7, _⟩ => ⟨S16x4096x64, .f32⟩
  | .hbm, ⟨8, _⟩ => ⟨S65536x64, .f32⟩
  | .hbm, ⟨9, _⟩ => ⟨S65536x4x16, .f32⟩
  | .hbm, ⟨10, _⟩ => ⟨S65536x16x4, .f32⟩
  | .hbm, ⟨11, _⟩ => ⟨S65536x64, .f32⟩
  | .hbm, ⟨12, _⟩ => ⟨S65536x64, .bf16⟩
  | .hbm, ⟨13, _⟩ => ⟨S_, .i32⟩
  | .hbm, ⟨14, _⟩ => ⟨S65536x20, .i32⟩
  | .hbm, ⟨15, _⟩ => ⟨S65536x20, .i1⟩
  | .hbm, ⟨16, _⟩ => ⟨S_, .i32⟩
  | .hbm, ⟨17, _⟩ => ⟨S65536x20, .i32⟩
  | .hbm, ⟨18, _⟩ => ⟨S65536x20, .i32⟩
  | .hbm, ⟨19, _⟩ => ⟨S65536x20, .i32⟩
  | .hbm, ⟨20, _⟩ => ⟨S65536x20x1, .i32⟩
  | .hbm, ⟨21, _⟩ => ⟨S65536x20x64, .bf16⟩
  | .hbm, ⟨22, _⟩ => ⟨S1280x64, .f32⟩
  | .hbm, ⟨23, _⟩ => ⟨S1x64, .f32⟩
  | .hbm, ⟨24, _⟩ => ⟨S65536x64, .f32⟩
  | .hbm, ⟨25, _⟩ => ⟨S16x4096x64, .f32⟩
  | .hbm, ⟨26, _⟩ => ⟨S16x64x4096, .f32⟩
  | .hbm, ⟨27, _⟩ => ⟨S_, .f32⟩
  | .hbm, ⟨28, _⟩ => ⟨S64, .f32⟩
  | .hbm, ⟨29, _⟩ => ⟨S1x64x1, .f32⟩
  | .hbm, ⟨30, _⟩ => ⟨S_, .f32⟩
  | .hbm, ⟨31, _⟩ => ⟨S1x64x1, .f32⟩
  | .hbm, ⟨32, _⟩ => ⟨S1x64x1, .f32⟩
  | .hbm, ⟨33, _⟩ => ⟨S_, .i32⟩
  | .hbm, ⟨34, _⟩ => ⟨S_, .f32⟩
  | .hbm, ⟨35, _⟩ => ⟨S64, .f32⟩
  | .hbm, ⟨36, _⟩ => ⟨S1x64x1, .f32⟩
  | .hbm, ⟨37, _⟩ => ⟨S_, .f32⟩
  | .hbm, ⟨38, _⟩ => ⟨S1x64x1, .f32⟩
  | .hbm, ⟨39, _⟩ => ⟨S1x64x1, .f32⟩
  | .hbm, ⟨40, _⟩ => ⟨S16x64x4096, .f32⟩
  | .hbm, ⟨41, _⟩ => ⟨S16x64x4096, .f32⟩
  | .hbm, ⟨42, _⟩ => ⟨S16x64x4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S64, .f32⟩
  | .hbm, ⟨48, _⟩ => ⟨S1x64x1, .f32⟩
  | .hbm, ⟨49, _⟩ => ⟨S1x64x1, .f32⟩
  | .hbm, ⟨50, _⟩ => ⟨S1x64x1, .f32⟩
  | .hbm, ⟨51, _⟩ => ⟨S_, .f32⟩
  | .hbm, ⟨52, _⟩ => ⟨S_, .i1⟩
  | .hbm, ⟨53, _⟩ => ⟨S_, .f32⟩
  | .hbm, ⟨54, _⟩ => ⟨S_, .f32⟩
  | .hbm, ⟨55, _⟩ => ⟨S1x64x1, .f32⟩
  | .hbm, ⟨56, _⟩ => ⟨S1x64x1, .f32⟩
  | .hbm, ⟨57, _⟩ => ⟨S16x64x4096, .f32⟩
  | .hbm, ⟨58, _⟩ => ⟨S16x64x4096, .f32⟩
  | .hbm, ⟨59, _⟩ => ⟨S_, .f32⟩
  | .hbm, ⟨60, _⟩ => ⟨S1x64x1, .f32⟩
  | .hbm, ⟨61, _⟩ => ⟨S1x64x1, .f32⟩
  | .hbm, ⟨62, _⟩ => ⟨S1x64x1, .f32⟩
  | .hbm, ⟨63, _⟩ => ⟨S16x64x4096, .f32⟩
  | .hbm, ⟨64, _⟩ => ⟨S16x64x4096, .f32⟩
  | .hbm, ⟨65, _⟩ => ⟨S1x64x1, .f32⟩
  | .hbm, ⟨66, _⟩ => ⟨S16x64x4096, .f32⟩
  | .hbm, ⟨67, _⟩ => ⟨S16x64x4096, .f32⟩
  | .hbm, ⟨68, _⟩ => ⟨S1x64x1, .f32⟩
  | .hbm, ⟨69, _⟩ => ⟨S16x64x4096, .f32⟩
  | .hbm, ⟨70, _⟩ => ⟨S16x64x4096, .f32⟩
  | .local _ .vmem, ⟨0, _⟩ => ⟨S512x20x64, .bf16⟩
  | .local _ .vmem, ⟨1, _⟩ => ⟨S512x20x64, .bf16⟩
  | .local _ .vmem, ⟨2, _⟩ => ⟨S512x20x20, .f32⟩
  | .local _ .vmem, ⟨3, _⟩ => ⟨S512x20x20, .f32⟩
  | .local _ .vmem, ⟨4, _⟩ => ⟨S1280x64, .f32⟩
  | .local _ .vmem, ⟨5, _⟩ => ⟨S1x64, .f32⟩
  | .local _ .vmem, ⟨6, _⟩ => ⟨S512x64, .f32⟩
  | .local _ .vmem, ⟨7, _⟩ => ⟨S512x64, .f32⟩
  | _, _ => ⟨S16x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_cst_3 : Ref sig .tc := ⟨.hbm, 51, rfl⟩
abbrev main_call0_v13 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_3 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x20x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x20x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1280x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S16x64x4096_S16x4096x64_0_2_1 : S16x64x4096.Transposes [0, 2, 1] S16x4096x64
  shapeCasts_S16x4096x64_S65536x64 : S16x4096x64.ShapeCasts S65536x64
  shapeCasts_S65536x64_S65536x4x16 : S65536x64.ShapeCasts S65536x4x16
  transposes_S65536x4x16_S65536x16x4_0_2_1 : S65536x4x16.Transposes [0, 2, 1] S65536x16x4
  shapeCasts_S65536x16x4_S65536x64 : S65536x16x4.ShapeCasts S65536x64
  bitsLt_bf16_f32 : FTy.bits .bf16 < FTy.bits .f32
  bcast_S_S65536x20 : S_.BroadcastsInDim S65536x20 (![] : Fin 0 → Fin S65536x20.rank)
  bcast_S65536x20_S65536x20x1_0_1 : S65536x20.BroadcastsInDim S65536x20x1 (![0, 1] : Fin 2 → Fin S65536x20x1.rank)
  transposes_S64x1280_S1280x64_1_0 : S64x1280.Transposes [1, 0] S1280x64
  shapeCasts_S64_S1x64 : S64.ShapeCasts S1x64
  inb_S512x20x64_S512x20x64_0_0_0 : ∀ a, (![0, 0, 0] : Fin 3 → Nat) a + S512x20x64.size a ≤ S512x20x64.size a
  h_S512x20x64 : 0 < S512x20x64.numel
  shapeCasts_S512x20x64_S512x20x64 : S512x20x64.ShapeCasts S512x20x64
  inb_S512x20x20_S512x20x20_0_0_0 : ∀ a, (![0, 0, 0] : Fin 3 → Nat) a + S512x20x20.size a ≤ S512x20x20.size a
  h_S512x20x20 : 0 < S512x20x20.numel
  shapeCasts_S512x64x20_S512x1280 : S512x64x20.ShapeCasts S512x1280
  inb_S1280x64_S1280x64_0_0 : ∀ a, (![0, 0] : Fin 2 → Nat) a + S1280x64.size a ≤ S1280x64.size a
  h_S1280x64 : 0 < S1280x64.numel
  shapeCasts_S1280x64_S1280x64 : S1280x64.ShapeCasts S1280x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  shapeCasts_S65536x64_S16x4096x64 : S65536x64.ShapeCasts S16x4096x64
  transposes_S16x4096x64_S16x64x4096_0_2_1 : S16x4096x64.Transposes [0, 2, 1] S16x64x4096
  reducesTo_S16x64x4096_S64_d0_2 : S16x64x4096.ReducesTo [0, 2] S64
  h_S_ : 0 < S_.numel
  bcast_S64_S1x64x1_1 : S64.BroadcastsInDim S1x64x1 (![1] : Fin 1 → Fin S1x64x1.rank)
  bcast_S_S1x64x1 : S_.BroadcastsInDim S1x64x1 (![] : Fin 0 → Fin S1x64x1.rank)
  bcast_S1x64x1_S16x64x4096_0_1_2 : S1x64x1.BroadcastsInDim S16x64x4096 (![0, 1, 2] : Fin 3 → Fin S16x64x4096.rank)
  gather_S65536x64_S65536x20x1_S65536x20x64_2_0_n_n_0_2_164_wf : GatherDims.WF S65536x64 S65536x20x1 S65536x20x64 [2] [0] [] [0] [] 2 ![1, 64]
  dot_S512x20x64_S512x20x20_S512x64x20_1_1_2_2_0_0_wf : DotDims.WF S512x20x64 S512x20x20 S512x64x20 [1] [1] [2] [2] [0] [0]
  dot_S512x1280_S1280x64_S512x64_1_0_0_1_n_n_wf : DotDims.WF S512x1280 S1280x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x20x64.size a ≤ S65536x20x64.size a
  hwx0_0 : ∀ i : grid0.Coords, EltTy.bits .bf16 = 32 ∨ (Rect.block (s := S65536x20x64) S512x20x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x20x20.size a ≤ S65536x20x20.size a
  hwx0_1 : ∀ i : grid0.Coords, EltTy.bits .f32 = 32 ∨ (Rect.block (s := S65536x20x20) S512x20x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1280x64.size a ≤ S1280x64.size a
  hwx0_2 : ∀ i : grid0.Coords, EltTy.bits .f32 = 32 ∨ (Rect.block (s := S1280x64) S1280x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S65536x64.size a
  hwx0_4 : ∀ i : grid0.Coords, EltTy.bits .f32 = 32 ∨ (Rect.block (s := S65536x64) S512x64.size (cc0_transform_4 i) (hinb0_4 i)).WholeWords (EltTy.packing .f32)

variable [Facts₀]

def gather_S65536x64_S65536x20x1_S65536x20x64_2_0_n_n_0_2_164 : GatherDims S65536x64 S65536x20x1 S65536x20x64 where
  offsetDims := [2]
  collapsedSliceDims := [0]
  operandBatchingDims := []
  startIndicesBatchingDims := []
  startIndexMap := [0]
  indexVectorDim := 2
  sliceSizes := ![1, 64]
  wf := gather_S65536x64_S65536x20x1_S65536x20x64_2_0_n_n_0_2_164_wf
def dot_S512x20x64_S512x20x20_S512x64x20_1_1_2_2_0_0 : DotDims S512x20x64 S512x20x20 S512x64x20 where
  lhsContracting := [1]
  rhsContracting := [1]
  lhsNonContracting := [2]
  rhsNonContracting := [2]
  lhsBatch := [0]
  rhsBatch := [0]
  wf := dot_S512x20x64_S512x20x20_S512x64x20_1_1_2_2_0_0_wf
def dot_S512x1280_S1280x64_S512x64_1_0_0_1_n_n : DotDims S512x1280 S1280x64 S512x64 where
  lhsContracting := [1]
  rhsContracting := [0]
  lhsNonContracting := [0]
  rhsNonContracting := [1]
  lhsBatch := []
  rhsBatch := []
  wf := dot_S512x1280_S1280x64_S512x64_1_0_0_1_n_n_wf

abbrev win0_0 : Pipeline.Window sig grid0 :=
  Pipeline.Window.ofSpec (Memref.whole main_v12) S512x20x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x20x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1280x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x64x4096 : Shape := ⟨3, ![16, 64, 4096]⟩
abbrev S65536x20x20 : Shape := ⟨3, ![65536, 20, 20]⟩
abbrev S64x1280 : Shape := ⟨2, ![64, 1280]⟩
abbrev S64 : Shape := ⟨1, ![64]⟩
abbrev S65536x20 : Shape := ⟨2, ![65536, 20]⟩
abbrev S16x4096x64 : Shape := ⟨3, ![16, 4096, 64]⟩
abbrev S65536x64 : Shape := ⟨2, ![65536, 64]⟩
abbrev S_ : Shape := ⟨0, ![]⟩
abbrev S65536x20x1 : Shape := ⟨3, ![65536, 20, 1]⟩
abbrev S65536x20x64 : Shape := ⟨3, ![65536, 20, 64]⟩
abbrev S65536x64x20 : Shape := ⟨3, ![65536, 64, 20]⟩
abbrev S65536x4x16x20 : Shape := ⟨4, ![65536, 4, 16, 20]⟩
abbrev S65536x16x4x20 : Shape := ⟨4, ![65536, 16, 4, 20]⟩
abbrev S65536x1280 : Shape := ⟨2, ![65536, 1280]⟩
abbrev S1280x64 : Shape := ⟨2, ![1280, 64]⟩
abbrev S1x64 : Shape := ⟨2, ![1, 64]⟩
abbrev S1x64x1 : Shape := ⟨3, ![1, 64, 1]⟩

abbrev nBuf : Space → Nat
  | .hbm => 75
  | .vmem => 0
  | .smem => 0
  | _ => 0

abbrev bufTy : (tb : Table) → Fin (tcTables nBuf tb) → BufTy
  | .hbm, ⟨0, _⟩ => ⟨S16x64x4096, .f32⟩
  | .hbm, ⟨1, _⟩ => ⟨S65536x20x20, .f32⟩
  | .hbm, ⟨2, _⟩ => ⟨S64x1280, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S65536x20, .i32⟩
  | .hbm, ⟨7, _⟩ => ⟨S16x4096x64, .f32⟩
  | .hbm, ⟨8, _⟩ => ⟨S65536x64, .f32⟩
  | .hbm, ⟨9, _⟩ => ⟨S_, .i32⟩
  | .hbm, ⟨10, _⟩ => ⟨S65536x20, .i32⟩
  | .hbm, ⟨11, _⟩ => ⟨S65536x20, .i1⟩
  | .hbm, ⟨12, _⟩ => ⟨S_, .i32⟩
  | .hbm, ⟨13, _⟩ => ⟨S65536x20, .i32⟩
  | .hbm, ⟨14, _⟩ => ⟨S65536x20, .i32⟩
  | .hbm, ⟨15, _⟩ => ⟨S65536x20, .i32⟩
  | .hbm, ⟨16, _⟩ => ⟨S65536x20x1, .i32⟩
  | .hbm, ⟨17, _⟩ => ⟨S65536x20x64, .f32⟩
  | .hbm, ⟨18, _⟩ => ⟨S65536x64x20, .f32⟩
  | .hbm, ⟨19, _⟩ => ⟨S65536x4x16x20, .f32⟩
  | .hbm, ⟨20, _⟩ => ⟨S65536x16x4x20, .f32⟩
  | .hbm, ⟨21, _⟩ => ⟨S65536x64x20, .f32⟩
  | .hbm, ⟨22, _⟩ => ⟨S65536x64x20, .f32⟩
  | .hbm, ⟨23, _⟩ => ⟨S65536x1280, .f32⟩
  | .hbm, ⟨24, _⟩ => ⟨S1280x64, .f32⟩
  | .hbm, ⟨25, _⟩ => ⟨S65536x64, .f32⟩
  | .hbm, ⟨26, _⟩ => ⟨S1x64, .f32⟩
  | .hbm, ⟨27, _⟩ => ⟨S65536x64, .f32⟩
  | .hbm, ⟨28, _⟩ => ⟨S65536x64, .f32⟩
  | .hbm, ⟨29, _⟩ => ⟨S16x4096x64, .f32⟩
  | .hbm, ⟨30, _⟩ => ⟨S16x64x4096, .f32⟩
  | .hbm, ⟨31, _⟩ => ⟨S_, .f32⟩
  | .hbm, ⟨32, _⟩ => ⟨S64, .f32⟩
  | .hbm, ⟨33, _⟩ => ⟨S1x64x1, .f32⟩
  | .hbm, ⟨34, _⟩ => ⟨S_, .f32⟩
  | .hbm, ⟨35, _⟩ => ⟨S1x64x1, .f32⟩
  | .hbm, ⟨36, _⟩ => ⟨S1x64x1, .f32⟩
  | .hbm, ⟨37, _⟩ => ⟨S_, .i32⟩
  | .hbm, ⟨38, _⟩ => ⟨S_, .f32⟩
  | .hbm, ⟨39, _⟩ => ⟨S64, .f32⟩
  | .hbm, ⟨40, _⟩ => ⟨S1x64x1, .f32⟩
  | .hbm, ⟨41, _⟩ => ⟨S_, .f32⟩
  | .hbm, ⟨42, _⟩ => ⟨S1x64x1, .f32⟩
  | .hbm, ⟨43, _⟩ => ⟨S1x64x1, .f32⟩
  | .hbm, ⟨44, _⟩ => ⟨S16x64x4096, .f32⟩
  | .hbm, ⟨45, _⟩ => ⟨S16x64x4096, .f32⟩
  | .hbm, ⟨46, _⟩ => ⟨S16x64x4096, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S64, .f32⟩
  | .hbm, ⟨52, _⟩ => ⟨S1x64x1, .f32⟩
  | .hbm, ⟨53, _⟩ => ⟨S1x64x1, .f32⟩
  | .hbm, ⟨54, _⟩ => ⟨S1x64x1, .f32⟩
  | .hbm, ⟨55, _⟩ => ⟨S_, .f32⟩
  | .hbm, ⟨56, _⟩ => ⟨S_, .i1⟩
  | .hbm, ⟨57, _⟩ => ⟨S_, .f32⟩
  | .hbm, ⟨58, _⟩ => ⟨S_, .f32⟩
  | .hbm, ⟨59, _⟩ => ⟨S1x64x1, .f32⟩
  | .hbm, ⟨60, _⟩ => ⟨S1x64x1, .f32⟩
  | .hbm, ⟨61, _⟩ => ⟨S16x64x4096, .f32⟩
  | .hbm, ⟨62, _⟩ => ⟨S16x64x4096, .f32⟩
  | .hbm, ⟨63, _⟩ => ⟨S_, .f32⟩
  | .hbm, ⟨64, _⟩ => ⟨S1x64x1, .f32⟩
  | .hbm, ⟨65, _⟩ => ⟨S1x64x1, .f32⟩
  | .hbm, ⟨66, _⟩ => ⟨S1x64x1, .f32⟩
  | .hbm, ⟨67, _⟩ => ⟨S16x64x4096, .f32⟩
  | .hbm, ⟨68, _⟩ => ⟨S16x64x4096, .f32⟩
  | .hbm, ⟨69, _⟩ => ⟨S1x64x1, .f32⟩
  | .hbm, ⟨70, _⟩ => ⟨S16x64x4096, .f32⟩
  | .hbm, ⟨71, _⟩ => ⟨S16x64x4096, .f32⟩
  | .hbm, ⟨72, _⟩ => ⟨S1x64x1, .f32⟩
  | .hbm, ⟨73, _⟩ => ⟨S16x64x4096, .f32⟩
  | .hbm, ⟨74, _⟩ => ⟨S16x64x4096, .f32⟩
  | _, _ => ⟨S16x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_cst_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_cst_1 : Ref sig .tc := ⟨.hbm, 48, rfl⟩
abbrev main_call0_v8 : Ref sig .tc := ⟨.hbm, 49, rfl⟩
abbrev main_call0_cst_2 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_cst_3 : Ref sig .tc := ⟨.hbm, 55, rfl⟩
abbrev main_call0_v13 : Ref sig .tc := ⟨.hbm, 56, rfl⟩
abbrev main_call0_cst_4 : Ref sig .tc := ⟨.hbm, 57, rfl⟩
abbrev main_call0_call0_v0 : Ref sig .tc := ⟨.hbm, 58, rfl⟩
abbrev main_call0_call0_v1 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_3 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩

abbrev nD : Nat := 1
abbrev τ : Topo := Topo.v7x

variable {F : FTy → Type} [FloatOps F]

class Facts₀ : Prop where
  transposes_S16x64x4096_S16x4096x64_0_2_1 : S16x64x4096.Transposes [0, 2, 1] S16x4096x64
  shapeCasts_S16x4096x64_S65536x64 : S16x4096x64.ShapeCasts S65536x64
  bcast_S_S65536x20 : S_.BroadcastsInDim S65536x20 (![] : Fin 0 → Fin S65536x20.rank)
  bcast_S65536x20_S65536x20x1_0_1 : S65536x20.BroadcastsInDim S65536x20x1 (![0, 1] : Fin 2 → Fin S65536x20x1.rank)
  transposes_S65536x20x64_S65536x64x20_0_2_1 : S65536x20x64.Transposes [0, 2, 1] S65536x64x20
  shapeCasts_S65536x64x20_S65536x4x16x20 : S65536x64x20.ShapeCasts S65536x4x16x20
  transposes_S65536x4x16x20_S65536x16x4x20_0_2_1_3 : S65536x4x16x20.Transposes [0, 2, 1, 3] S65536x16x4x20
  shapeCasts_S65536x16x4x20_S65536x64x20 : S65536x16x4x20.ShapeCasts S65536x64x20
  shapeCasts_S65536x64x20_S65536x1280 : S65536x64x20.ShapeCasts S65536x1280
  transposes_S64x1280_S1280x64_1_0 : S64x1280.Transposes [1, 0] S1280x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  shapeCasts_S65536x64_S16x4096x64 : S65536x64.ShapeCasts S16x4096x64
  transposes_S16x4096x64_S16x64x4096_0_2_1 : S16x4096x64.Transposes [0, 2, 1] S16x64x4096
  reducesTo_S16x64x4096_S64_d0_2 : S16x64x4096.ReducesTo [0, 2] S64
  h_S_ : 0 < S_.numel
  bcast_S64_S1x64x1_1 : S64.BroadcastsInDim S1x64x1 (![1] : Fin 1 → Fin S1x64x1.rank)
  bcast_S_S1x64x1 : S_.BroadcastsInDim S1x64x1 (![] : Fin 0 → Fin S1x64x1.rank)
  bcast_S1x64x1_S16x64x4096_0_1_2 : S1x64x1.BroadcastsInDim S16x64x4096 (![0, 1, 2] : Fin 3 → Fin S16x64x4096.rank)
  gather_S65536x64_S65536x20x1_S65536x20x64_2_0_n_n_0_2_164_wf : GatherDims.WF S65536x64 S65536x20x1 S65536x20x64 [2] [0] [] [0] [] 2 ![1, 64]
  dot_S65536x64x20_S65536x20x20_S65536x64x20_2_1_1_2_0_0_wf : DotDims.WF S65536x64x20 S65536x20x20 S65536x64x20 [2] [1] [1] [2] [0] [0]
  dot_S65536x1280_S1280x64_S65536x64_1_0_0_1_n_n_wf : DotDims.WF S65536x1280 S1280x64 S65536x64 [1] [0] [0] [1] [] []

variable [Facts₀]

def gather_S65536x64_S65536x20x1_S65536x20x64_2_0_n_n_0_2_164 : GatherDims S65536x64 S65536x20x1 S65536x20x64 where
  offsetDims := [2]
  collapsedSliceDims := [0]
  operandBatchingDims := []
  startIndicesBatchingDims := []
  startIndexMap := [0]
  indexVectorDim := 2
  sliceSizes := ![1, 64]
  wf := gather_S65536x64_S65536x20x1_S65536x20x64_2_0_n_n_0_2_164_wf
def dot_S65536x64x20_S65536x20x20_S65536x64x20_2_1_1_2_0_0 : DotDims S65536x64x20 S65536x20x20 S65536x64x20 where
  lhsContracting := [2]
  rhsContracting := [1]
  lhsNonContracting := [1]
  rhsNonContracting := [2]
  lhsBatch := [0]
  rhsBatch := [0]
  wf := dot_S65536x64x20_S65536x20x20_S65536x64x20_2_1_1_2_0_0_wf
def dot_S65536x1280_S1280x64_S65536x64_1_0_0_1_n_n : DotDims S65536x1280 S1280x64 S65536x64 where
  lhsContracting := [1]
  rhsContracting := [0]
  lhsNonContracting := [0]
  rhsNonContracting := [1]
  lhsBatch := []
  rhsBatch := []
  wf := dot_S65536x1280_S1280x64_S65536x64_1_0_0_1_n_n_wf

class Facts : Prop extends Facts₀ where

variable [Facts]
-- ==== Proof.Terms.lean ====
/-
  The vocabulary both programs are read in. A point cloud of 65536 = 16 · 4096 points carries 64 channels per point; each
  point has 20 neighbours (row numbers into the same cloud) and a 20 × 20 mixing matrix. The layer gathers the neighbours'
  channel rows, interleaves the channels in four groups of sixteen, contracts the neighbour axis against the point's
  matrix, flattens (channel, slot) to 1280 features, applies a 1280 → 64 linear map with bias, and normalises every
  output channel over all points with the batch statistics (mean, biased variance, ε = 1e-5 as its f32 word), scale and shift.

  Stated here, for any float instance: the row table `flat`, the neighbour rows `nidx` (negative numbers wrapped once by
  65536, then clamped by the gather itself), the gathered rows of the plain table (`gathered`) and of the table whose
  channels were interleaved first (`gatheredInterleaved`), the interleaving of an already gathered array (`interleave`),
  the transposed weight, the bias as a row, the reference's array before normalisation (`refPre`) and the normalisation
  `tail` that both programs apply, operation for operation, to their [65536, 64] array.
-/
import Idealize.ShloMosaic.PureOps.Ideal
import Idealize.ShloMosaic.Lib.ValueIdx

noncomputable section

namespace PaiConv

open Idealize.ShloMosaic

abbrev S16x64x4096 : Shape := ⟨3, ![16, 64, 4096]⟩
abbrev S65536x20x20 : Shape := ⟨3, ![65536, 20, 20]⟩
abbrev S64x1280 : Shape := ⟨2, ![64, 1280]⟩
abbrev S64 : Shape := ⟨1, ![64]⟩
abbrev S65536x20 : Shape := ⟨2, ![65536, 20]⟩
abbrev S16x4096x64 : Shape := ⟨3, ![16, 4096, 64]⟩
abbrev S65536x64 : Shape := ⟨2, ![65536, 64]⟩
abbrev S65536x4x16 : Shape := ⟨3, ![65536, 4, 16]⟩
abbrev S65536x16x4 : Shape := ⟨3, ![65536, 16, 4]⟩
abbrev S_ : Shape := ⟨0, ![]⟩
abbrev S65536x20x1 : Shape := ⟨3, ![65536, 20, 1]⟩
abbrev S65536x20x64 : Shape := ⟨3, ![65536, 20, 64]⟩
abbrev S65536x64x20 : Shape := ⟨3, ![65536, 64, 20]⟩
abbrev S65536x4x16x20 : Shape := ⟨4, ![65536, 4, 16, 20]⟩
abbrev S65536x16x4x20 : Shape := ⟨4, ![65536, 16, 4, 20]⟩
abbrev S65536x1280 : Shape := ⟨2, ![65536, 1280]⟩
abbrev S1280x64 : Shape := ⟨2, ![1280, 64]⟩
abbrev S1x64 : Shape := ⟨2, ![1, 64]⟩
abbrev S1x64x1 : Shape := ⟨3, ![1, 64, 1]⟩

/-! ## The shape facts the operations cite -/

theorem tr_feat : S16x64x4096.Transposes [0, 2, 1] S16x4096x64 := by decide
theorem sc_flat : S16x4096x64.ShapeCasts S65536x64 := by decide
theorem sc_grp : S65536x64.ShapeCasts S65536x4x16 := by decide
theorem tr_grp : S65536x4x16.Transposes [0, 2, 1] S65536x16x4 := by decide
theorem sc_ungrp : S65536x16x4.ShapeCasts S65536x64 := by decide
theorem bits_lt : FTy.bits .bf16 < FTy.bits .f32 := by decide
theorem bc_idx0 : S_.BroadcastsInDim S65536x20 (![] : Fin 0 → Fin S65536x20.rank) := by decide
theorem bc_idx1 : S65536x20.BroadcastsInDim S65536x20x1 (![0, 1] : Fin 2 → Fin S65536x20x1.rank) := by decide
theorem tr_w : S64x1280.Transposes [1, 0] S1280x64 := by decide
theorem sc_b : S64.ShapeCasts S1x64 := by decide
theorem gd_wf : GatherDims.WF S65536x64 S65536x20x1 S65536x20x64 [2] [0] [] [0] [] 2 ![1, 64] := by decide
theorem tr_nb : S65536x20x64.Transposes [0, 2, 1] S65536x64x20 := by decide
theorem sc_grp4 : S65536x64x20.ShapeCasts S65536x4x16x20 := by decide
theorem tr_grp4 : S65536x4x16x20.Transposes [0, 2, 1, 3] S65536x16x4x20 := by decide
theorem sc_ungrp4 : S65536x16x4x20.ShapeCasts S65536x64x20 := by decide
theorem sc_feat : S65536x64x20.ShapeCasts S65536x1280 := by decide
theorem bc_b1 : S64.BroadcastsInDim S1x64 (![1] : Fin 1 → Fin S1x64.rank) := by decide
theorem bc_b2 : S1x64.BroadcastsInDim S65536x64 (![0, 1] : Fin 2 → Fin S65536x64.rank) := by decide
theorem dotMix_wf : DotDims.WF S65536x64x20 S65536x20x20 S65536x64x20 [2] [1] [1] [2] [0] [0] := by decide
theorem dotLin_wf : DotDims.WF S65536x1280 S1280x64 S65536x64 [1] [0] [0] [1] [] [] := by decide
theorem sc_out : S65536x64.ShapeCasts S16x4096x64 := by decide
theorem tr_out : S16x4096x64.Transposes [0, 2, 1] S16x64x4096 := by decide
theorem red_ch : S16x64x4096.ReducesTo [0, 2] S64 := by decide
theorem h_S_ : 0 < S_.numel := by decide
theorem bc_ch : S64.BroadcastsInDim S1x64x1 (![1] : Fin 1 → Fin S1x64x1.rank) := by decide
theorem bc_sc : S_.BroadcastsInDim S1x64x1 (![] : Fin 0 → Fin S1x64x1.rank) := by decide
theorem bc_all : S1x64x1.BroadcastsInDim S16x64x4096 (![0, 1, 2] : Fin 3 → Fin S16x64x4096.rank) := by decide

/-- The gather's dimension numbers: row `idx[p, k, 0]` of a [65536, 64] table, all 64 columns. -/
def gd : GatherDims S65536x64 S65536x20x1 S65536x20x64 where
  offsetDims := [2]
  collapsedSliceDims := [0]
  operandBatchingDims := []
  startIndicesBatchingDims := []
  startIndexMap := [0]
  indexVectorDim := 2
  sliceSizes := ![1, 64]
  wf := gd_wf
/-- The per-point mixing: [p, c, k] · [p, k, s] → [p, c, s], the neighbour axis k contracted. -/
def dotMix : DotDims S65536x64x20 S65536x20x20 S65536x64x20 where
  lhsContracting := [2]
  rhsContracting := [1]
  lhsNonContracting := [1]
  rhsNonContracting := [2]
  lhsBatch := [0]
  rhsBatch := [0]
  wf := dotMix_wf
/-- The linear map: [p, j] · [j, o] → [p, o]. -/
def dotLin : DotDims S65536x1280 S1280x64 S65536x64 where
  lhsContracting := [1]
  rhsContracting := [0]
  lhsNonContracting := [0]
  rhsNonContracting := [1]
  lhsBatch := []
  rhsBatch := []
  wf := dotLin_wf

variable {F : FTy → Type} [FloatOps F]

/-- The row table: row 4096·b + n, column c holds feature[b, c, n]. -/
def flat (a0 : FVec F S16x64x4096 .f32) : FVec F S65536x64 .f32 :=
  shapeCast S65536x64 (transpose S16x4096x64 [0, 2, 1] a0 tr_feat) sc_flat

/-- The neighbour rows as the gather takes them: a negative number has 65536 added once. -/
def nidx (a6 : IVec S65536x20 32) : IVec S65536x20x1 32 :=
  broadcastInDim S65536x20x1 ![0, 1] bc_idx1
    (select (cmpi .slt a6 (broadcastInDim S65536x20 ![] bc_idx0 (constantI S_ 32 0#32)))
      (addi a6 (broadcastInDim S65536x20 ![] bc_idx0 (constantI S_ 32 65536#32))) a6)

/-- The neighbours' rows of the plain table: [p, k, c]. -/
def gathered (a0 : FVec F S16x64x4096 .f32) (a6 : IVec S65536x20 32) : FVec F S65536x20x64 .f32 :=
  Host.gather gd (flat a0) (nidx a6)

/-- The table with its channels interleaved (column 4·j + g takes column 16·g + j), narrowed. -/
def tableInterleaved (a0 : FVec F S16x64x4096 .f32) : FVec F S65536x64 .bf16 :=
  truncf .bf16 (shapeCast S65536x64 (transpose S65536x16x4 [0, 2, 1] (shapeCast S65536x4x16 (flat a0) sc_grp) tr_grp) sc_ungrp) bits_lt

/-- The neighbours' rows of the interleaved table: [p, k, c']. -/
def gatheredInterleaved (a0 : FVec F S16x64x4096 .f32) (a6 : IVec S65536x20 32) : FVec F S65536x20x64 .bf16 :=
  Host.gather gd (tableInterleaved a0) (nidx a6)

/-- Gathered rows [p, k, c] to channel-major and interleaved [p, c', k]. -/
def interleave (x : FVec F S65536x20x64 .f32) : FVec F S65536x64x20 .f32 :=
  shapeCast S65536x64x20 (transpose S65536x16x4x20 [0, 2, 1, 3]
    (shapeCast S65536x4x16x20 (transpose S65536x64x20 [0, 2, 1] x tr_nb) sc_grp4) tr_grp4) sc_ungrp4

/-- The weight transposed: [j, o]. -/
def wT (a2 : FVec F S64x1280 .f32) : FVec F S1280x64 .f32 := transpose S1280x64 [1, 0] a2 tr_w

/-- The bias as a [1, 64] row. -/
def biasRow (a3 : FVec F S64 .f32) : FVec F S1x64 .f32 := shapeCast S1x64 a3 sc_b

/-- The reference's [65536, 64] array before the normalisation. -/
def refPre (a0 : FVec F S16x64x4096 .f32) (a1 : FVec F S65536x20x20 .f32) (a2 : FVec F S64x1280 .f32) (a3 : FVec F S64 .f32)
    (a6 : IVec S65536x20 32) : FVec F S65536x64 .f32 :=
  addf (Host.dotGeneral dotLin none (shapeCast S65536x1280 (Host.dotGeneral dotMix none (interleave (gathered a0 a6)) a1) sc_feat) (wT a2))
    (broadcastInDim S65536x64 ![0, 1] bc_b2 (broadcastInDim S1x64 ![1] bc_b1 a3))

/-- [65536, 64] back to [16, 64, 4096]. -/
def unflat (x : FVec F S65536x64 .f32) : FVec F S16x64x4096 .f32 :=
  transpose S16x64x4096 [0, 2, 1] (shapeCast S16x4096x64 x sc_out) tr_out

/-- The per-channel mean over the 65536 points, as [1, 64, 1]. -/
def chMean (o : FVec F S16x64x4096 .f32) : FVec F S1x64x1 .f32 :=
  Host.divf (broadcastInDim S1x64x1 ![1] bc_ch (Host.reduceAdd o (constant S_ .f32 0x00000000#32) red_ch h_S_))
    (broadcastInDim S1x64x1 ![] bc_sc (constant S_ .f32 0x47800000#32))

/-- The count the variance divides by: 65536 minus the (zero) degrees-of-freedom correction. -/
def chCount : FVec F S_ .f32 := subf (constant S_ .f32 0x47800000#32) (sitofp .f32 (constantI S_ 32 0#32))

/-- The per-channel biased variance, as [1, 64, 1] (not-a-number where the count is not positive). -/
def chVar (o : FVec F S16x64x4096 .f32) : FVec F S1x64x1 .f32 :=
  select (broadcastInDim S1x64x1 ![] bc_sc (cmpf .ogt (chCount (F := F)) (constant S_ .f32 0x00000000#32)))
    (Host.divf
      (broadcastInDim S1x64x1 ![1] bc_ch
        (Host.reduceAdd (mulf (subf o (broadcastInDim S16x64x4096 ![0, 1, 2] bc_all (chMean o)))
            (subf o (broadcastInDim S16x64x4096 ![0, 1, 2] bc_all (chMean o))))
          (constant S_ .f32 0x00000000#32) red_ch h_S_))
      (broadcastInDim S1x64x1 ![] bc_sc (chCount (F := F))))
    (broadcastInDim S1x64x1 ![] bc_sc (id (constant S_ .f32 0x7FC00000#32)))

/-- The normalisation both programs end with, from the [65536, 64] array, the scale and the shift. -/
def tail (x : FVec F S65536x64 .f32) (g b : FVec F S64 .f32) : FVec F S16x64x4096 .f32 :=
  addf
    (mulf
      (mulf (subf (unflat x) (broadcastInDim S16x64x4096 ![0, 1, 2] bc_all (chMean (unflat x))))
        (broadcastInDim S16x64x4096 ![0, 1, 2] bc_all
          (Host.rsqrt (addf (chVar (unflat x)) (broadcastInDim S1x64x1 ![] bc_sc (constant S_ .f32 0x3727C5AC#32))))))
      (broadcastInDim S16x64x4096 ![0, 1, 2] bc_all (broadcastInDim S1x64x1 ![1] bc_ch g)))
    (broadcastInDim S16x64x4096 ![0, 1, 2] bc_all (broadcastInDim S1x64x1 ![1] bc_ch b))

end PaiConv

end
-- ==== Proof.Spec.lean ====
/-
  The layer before normalisation, index by index, on the extended reals. With `A[r, k, c']` the (interleaved) neighbour
  rows, `pm[r, k, s]` the points' matrices, `wt[j, o]` the transposed weight and `bias[0, o]` the bias row, entry (r, o) is

      ( ∑ j < 1280, ( ∑ k < 20, A[r, k, j / 20] · pm[r, k, j % 20] ) · wt[j, o] ) + bias[0, o] :

  feature j of a point is (channel j / 20, slot j % 20) of its mixed [64, 20] array. The number of rows `n` is a parameter,
  so the same formula reads a block of 512 rows and the whole array of 65536.
-/
import Idealize.ShloMosaic.PureOps.Ideal
import Idealize.ShloMosaic.Lib.ValueIdx

noncomputable section

open scoped BigOperators

namespace PaiConv

open Idealize.ShloMosaic Idealize.ShloMosaic.ValueIdx

/-- Feature j's channel. -/
def chOf (j : Fin 1280) : Fin 64 := ⟨j.val / 20, by have := j.isLt; omega⟩
/-- Feature j's slot. -/
def slotOf (j : Fin 1280) : Fin 20 := ⟨j.val % 20, Nat.mod_lt _ (by decide)⟩

/-- Entry (r, o) of the layer before normalisation, from n rows of neighbour features and matrices. -/
def convAt {n : Nat} (A : (⟨3, ![n, 20, 64]⟩ : Shape).Idx → EReal) (pm : (⟨3, ![n, 20, 20]⟩ : Shape).Idx → EReal)
    (wt : (⟨2, ![1280, 64]⟩ : Shape).Idx → EReal) (bias : (⟨2, ![1, 64]⟩ : Shape).Idx → EReal) (r : Fin n) (o : Fin 64) : EReal :=
  (∑ j : Fin 1280, (∑ k : Fin 20, A (ix3 r k (chOf j)) * pm (ix3 r k (slotOf j))) * wt (ix2 j o)) + bias (ix2 (0 : Fin 1) o)

/-- The same as an array over n rows. -/
def convArr {n : Nat} (A : (⟨3, ![n, 20, 64]⟩ : Shape).Idx → EReal) (pm : (⟨3, ![n, 20, 20]⟩ : Shape).Idx → EReal)
    (wt : (⟨2, ![1280, 64]⟩ : Shape).Idx → EReal) (bias : (⟨2, ![1, 64]⟩ : Shape).Idx → EReal) :
    (⟨2, ![n, 64]⟩ : Shape).Idx → EReal :=
  fun i => convAt A pm wt bias ⟨(i 0).val, idx2_lt0 i⟩ ⟨(i 1).val, idx2_lt1 i⟩

theorem convArr_ix2 {n : Nat} (A : (⟨3, ![n, 20, 64]⟩ : Shape).Idx → EReal) (pm : (⟨3, ![n, 20, 20]⟩ : Shape).Idx → EReal)
    (wt : (⟨2, ![1280, 64]⟩ : Shape).Idx → EReal) (bias : (⟨2, ![1, 64]⟩ : Shape).Idx → EReal) (r : Fin n) (o : Fin 64) :
    convArr A pm wt bias (ix2 r o) = convAt A pm wt bias r o := rfl

end PaiConv

end
-- ==== Proof.KHost.lean ====
/-
  The host side of the idealized kernel program: what the arrays the region reads hold when the region is entered,
  and what the program's result holds after the operations that follow the region.

  Before the region the program transposes and flattens the feature array to a row table, interleaves the table's
  channels in four groups of sixteen, narrows it, wraps the negative neighbour numbers once, gathers the neighbours'
  rows, transposes the weight and reshapes the bias to a row. Each of these arrays is the composed term of
  `PaiConv` applied to the launch contents of the arguments. After the region the program brings the region's
  [65536, 64] output back to [16, 64, 4096] and normalises every channel over all points: the term `PaiConv.tail`.
-/
import proofs.«120987_j10050223472786_2_alg».proof.Proof.Gen.KernelIdeal.Frame
import proofs.«120987_j10050223472786_2_alg».proof.Proof.Terms
import Idealize.ShloMosaic.Lib.StableHlo.Run

noncomputable section

namespace Cert.KernelIdeal.HostValue

open Cert.KernelIdeal Cert.KernelIdeal.Gen
open Idealize.ShloMosaic Idealize.ShloMosaic.TcCoe Idealize.SL.Sem Idealize.ShloMosaic.Pipeline

variable (m : (ℓ : Loc nD τ sig) → Buf (Elt Ideal) ℓ)

/-- The transposed weight, as the region finds it. -/
theorem V_v13 (c : Dev nD) :
    @Eq (S1280x64.Idx → Ideal .f32) (V m c main_v13) (PaiConv.wT (F := Ideal) (m ((c : Thread nD τ).loc main_arg2))) := by
  show StableHlo.after hostOps0 (fun b => m (c, b)) (Proc.devRef .tc main_v13) = _
  after_results
  rfl

/-- The bias as a row, as the region finds it. -/
theorem V_v14 (c : Dev nD) :
    @Eq (S1x64.Idx → Ideal .f32) (V m c main_v14) (PaiConv.biasRow (F := Ideal) (m ((c : Thread nD τ).loc main_arg3))) := by
  show StableHlo.after hostOps0 (fun b => m (c, b)) (Proc.devRef .tc main_v14) = _
  after_results
  rfl

/-- The neighbours' rows of the interleaved, narrowed table, as the region finds them. -/
theorem V_v12 (c : Dev nD) :
    @Eq (S65536x20x64.Idx → Ideal .bf16) (V m c main_v12)
      (PaiConv.gatheredInterleaved (F := Ideal) (m ((c : Thread nD τ).loc main_arg0)) (m ((c : Thread nD τ).loc main_arg6))) := by
  show StableHlo.after hostOps0 (fun b => m (c, b)) (Proc.devRef .tc main_v12) = _
  after_results
  rfl

/-- The operations that follow the region, from any contents `W`: if `W` holds `x` at the region's output array and the
    scale `g` and shift `b` at their arguments, the program's result is `PaiConv.tail x g b`. -/
theorem tail_of (W : Valuation τ sig (Elt Ideal)) (x : FVec Ideal PaiConv.S65536x64 .f32) (g b : FVec Ideal PaiConv.S64 .f32)
    (h15 : W (Proc.devRef .tc main_v15) = x) (h4 : W (Proc.devRef .tc main_arg4) = g) (h5 : W (Proc.devRef .tc main_arg5) = b) :
    @Eq (S16x64x4096.Idx → Ideal .f32)
      (StableHlo.after (List.flatten [hostOps1, hostOps1_1, hostOps1_2]) W (Proc.devRef .tc main_v35)) (PaiConv.tail x g b) := by
  simp only [hostOps1, hostOps1_1, hostOps1_2, List.flatten_cons, List.flatten_nil, List.append_nil, List.cons_append, List.nil_append]
  after_results_simp
  rw [h15, h4, h5]
  rfl

/-- The program's result: the normalisation of the region's output array (window 4's array as the region leaves it) with
    the scale and the shift as launched. -/
theorem tail_eq (c : Dev nD) :
    @Eq (S16x64x4096.Idx → Ideal .f32)
      (Pipeline.afterTail₀ cfgs (dats m) 0 (V0 m) [hostOps1, hostOps1_1, hostOps1_2] c main_v35)
      (PaiConv.tail (F := Ideal) ((dats m 0 c).arrAt 4 cfg0.N) (m ((c : Thread nD τ).loc main_arg4)) (m ((c : Thread nD τ).loc main_arg5))) := by
  unfold Pipeline.afterTail₀
  have h15 : Pipeline.withArrays spec0 c (V0 m c) (fun w => (dats m 0 c).arrAt w cfg0.N) (Proc.devRef .tc main_v15)
      = (dats m 0 c).arrAt 4 cfg0.N :=
    Pipeline.withArrays_arr spec0 launch0.win.arr_inj c (V0 m c) (fun w => (dats m 0 c).arrAt w cfg0.N) 4
  have h4 : Pipeline.withArrays spec0 c (V0 m c) (fun w => (dats m 0 c).arrAt w cfg0.N) (Proc.devRef .tc main_arg4)
      = m ((c : Thread nD τ).loc main_arg4) :=
    (Pipeline.withArrays_of_ne spec0 c (V0 m c) _ main_arg4 (by exact (by decide : ∀ w, Pipeline.arrRef spec0 w ≠ main_arg4))).trans
      (V_main_arg4 m c)
  have h5 : Pipeline.withArrays spec0 c (V0 m c) (fun w => (dats m 0 c).arrAt w cfg0.N) (Proc.devRef .tc main_arg5)
      = m ((c : Thread nD τ).loc main_arg5) :=
    (Pipeline.withArrays_of_ne spec0 c (V0 m c) _ main_arg5 (by exact (by decide : ∀ w, Pipeline.arrRef spec0 w ≠ main_arg5))).trans
      (V_main_arg5 m c)
  exact tail_of (Pipeline.withArrays spec0 c (V0 m c) (fun w => (dats m 0 c).arrAt w cfg0.N)) _ _ _ h15 h4 h5

end Cert.KernelIdeal.HostValue

end
-- ==== Proof.Layout.lean ====
/-
  Reading the layout operations at an index.

  * Flattening [n, 64, 20] to [n, 1280] puts (channel, slot) at feature 20·channel + slot, so feature j reads (j / 20, j % 20).
  * The row gather reads, for neighbour k of point p and column c, the table at (row, c) where the row is the start
    index `idx[p, k, 0]` taken as a signed number and clamped into [0, 65535]; the column passes through untouched.
  * The channel interleave in four groups of sixteen sends interleaved channel c' = 4·j + g to channel σ c' = 16·g + j,
    whether it is applied to the table's columns before the gather or to the gathered array's channel axis after it —
    the gather only chooses rows. Hence gathering from the interleaved table equals interleaving the gathered rows.
-/
import proofs.«120987_j10050223472786_2_alg».proof.Proof.Terms
import proofs.«120987_j10050223472786_2_alg».proof.Proof.Spec
import Idealize.ShloMosaic.Lib.Pipeline.Value
import Idealize.ShloMosaic.Lib.ValueIdx

noncomputable section

open scoped BigOperators

namespace PaiConv

open Idealize.ShloMosaic Idealize.ShloMosaic.ValueIdx

/-- Feature j of the flattened [n, 1280] array is entry (j / 20, j % 20) of the [n, 64, 20] one. -/
theorem cast_feat {α : Type} {n : Nat} (v : (⟨3, ![n, 64, 20]⟩ : Shape).Idx → α) (h : (⟨3, ![n, 64, 20]⟩ : Shape).ShapeCasts ⟨2, ![n, 1280]⟩)
    (r : Fin n) (j : Fin 1280) :
    shapeCast ⟨2, ![n, 1280]⟩ v h (ix2 r j) = v (ix3 r (chOf j) (slotOf j)) := by
  refine shapeCast_apply v h _ _ ?_
  rw [Shape.rowMajor_val_three, Shape.rowMajor_val_two]
  show ((r.val * 64 + j.val / 20) * 20 + j.val % 20) = r.val * 1280 + j.val
  omega

/-- The table row the gather reads for neighbour k of point p: the start index read signed and clamped into [0, 65535]. -/
def rowOf (idx : IVec S65536x20x1 32) (p : Fin 65536) (k : Fin 20) : Fin 65536 :=
  ⟨min (idx (ix3 p k (0 : Fin 1))).toInt.toNat 65535, by omega⟩

theorem gather_apply {α : Type} (x : S65536x64.Idx → α) (idx : IVec S65536x20x1 32) (p : Fin 65536) (k : Fin 20) (c : Fin 64) :
    Host.gather gd x idx (ix3 p k c) = x (ix2 (rowOf idx p k) c) := by
  unfold Host.gather
  refine congrArg x (funext fun a => Fin.ext ?_)
  match a with
  | ⟨0, _⟩ =>
    show gd.start (ix3 p k c) idx 0 + gd.batchCoord (ix3 p k c) 0 + gd.offCoord (ix3 p k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx (ix3 p k c) ⟨List.idxOf (0 : Fin 2) gd.startIndexMap,
        List.idxOf_lt_length_iff.2 (List.mem_singleton.mpr rfl)⟩ = ix3 p k (0 : Fin 1) := by
      funext b; refine Fin.ext ?_
      match b with
      | ⟨0, _⟩ => rfl
      | ⟨1, _⟩ => rfl
      | ⟨2, _⟩ => rfl
    rw [hsi]
    rfl
  | ⟨1, _⟩ =>
    show gd.start (ix3 p k c) idx 1 + gd.batchCoord (ix3 p k c) 1 + gd.offCoord (ix3 p k c) 1 = _
    rw [GatherDims.batchCoord_eq_zero _ _ _ List.not_mem_nil]
    unfold GatherDims.start
    rw [dif_neg (show (1 : Fin 2) ∉ gd.startIndexMap by decide)]
    simp only [Nat.add_zero, Nat.zero_add]
    rfl

/-- Interleaved channel c' = 4·j + g takes channel 16·g + j. -/
def sigma (c : Fin 64) : Fin 64 := ⟨(c.val % 4) * 16 + c.val / 4, by have := c.isLt; omega⟩

variable {F : FTy → Type} [FloatOps F]

/-- The interleaved table at (row, c') is the plain table at (row, σ c'). -/
theorem tableInterleaved_apply (a0 : FVec Ideal S16x64x4096 .f32) (q : Fin 65536) (c : Fin 64) :
    tableInterleaved a0 (ix2 q c) = flat a0 (ix2 q (sigma c)) := by
  unfold tableInterleaved
  rw [truncf_apply]
  refine (shapeCast_apply _ sc_ungrp _ (ix3 q (⟨c.val / 4, by omega⟩ : Fin 16) (⟨c.val % 4, by omega⟩ : Fin 4)) ?_).trans ?_
  · rw [Shape.rowMajor_val_three, Shape.rowMajor_val_two]
    show (q.val * 16 + c.val / 4) * 4 + c.val % 4 = q.val * 64 + c.val
    omega
  refine (transpose_apply _ _ tr_grp _ (ix3 q (⟨c.val % 4, by omega⟩ : Fin 4) (⟨c.val / 4, by omega⟩ : Fin 16)) fun d => ?_).trans ?_
  · match d with
    | ⟨0, _⟩ => rfl
    | ⟨1, _⟩ => rfl
    | ⟨2, _⟩ => rfl
  refine shapeCast_apply _ sc_grp _ _ ?_
  rw [Shape.rowMajor_val_three, Shape.rowMajor_val_two]
  show q.val * 64 + ((c.val % 4) * 16 + c.val / 4) = (q.val * 4 + c.val % 4) * 16 + c.val / 4
  omega

/-- Interleaving an already gathered array: entry (p, c', k) is the gathered entry (p, k, σ c'). -/
theorem interleave_apply {α : Type} (x : S65536x20x64.Idx → α) (p : Fin 65536) (c : Fin 64) (k : Fin 20) :
    shapeCast S65536x64x20 (transpose S65536x16x4x20 [0, 2, 1, 3]
      (shapeCast S65536x4x16x20 (transpose S65536x64x20 [0, 2, 1] x tr_nb) sc_grp4) tr_grp4) sc_ungrp4 (ix3 p c k)
      = x (ix3 p k (sigma c)) := by
  refine (shapeCast_apply _ sc_ungrp4 _ (ix4 p (⟨c.val / 4, by omega⟩ : Fin 16) (⟨c.val % 4, by omega⟩ : Fin 4) k) ?_).trans ?_
  · rw [Shape.rowMajor_val_four, Shape.rowMajor_val_three]
    show ((p.val * 16 + c.val / 4) * 4 + c.val % 4) * 20 + k.val = (p.val * 64 + c.val) * 20 + k.val
    omega
  refine (transpose_apply _ _ tr_grp4 _ (ix4 p (⟨c.val % 4, by omega⟩ : Fin 4) (⟨c.val / 4, by omega⟩ : Fin 16) k) fun d => ?_).trans ?_
  · match d with
    | ⟨0, _⟩ => rfl
    | ⟨1, _⟩ => rfl
    | ⟨2, _⟩ => rfl
    | ⟨3, _⟩ => rfl
  refine (shapeCast_apply _ sc_grp4 _ (ix3 p (sigma c) k) ?_).trans ?_
  · rw [Shape.rowMajor_val_four, Shape.rowMajor_val_three]
    show (p.val * 64 + ((c.val % 4) * 16 + c.val / 4)) * 20 + k.val = ((p.val * 4 + c.val % 4) * 16 + c.val / 4) * 20 + k.val
    omega
  refine transpose_apply _ _ tr_nb _ _ fun d => ?_
  match d with
  | ⟨0, _⟩ => rfl
  | ⟨1, _⟩ => rfl
  | ⟨2, _⟩ => rfl

/-- Gathering from the interleaved table is interleaving the gathered rows. -/
theorem interleave_gathered (a0 : FVec Ideal S16x64x4096 .f32) (a6 : IVec S65536x20 32) (p : Fin 65536) (c : Fin 64) (k : Fin 20) :
    interleave (gathered a0 a6) (ix3 p c k) = gatheredInterleaved a0 a6 (ix3 p k c) := by
  unfold interleave gathered gatheredInterleaved
  rw [interleave_apply, gather_apply, gather_apply, tableInterleaved_apply]

end PaiConv

end
-- ==== Proof.KPay.lean ====
/-
  The kernel body's result on one block of 512 points, read at an index. The body loads the block's neighbour rows
  x0 [512, 20, 64], its matrices x1 [512, 20, 20], the transposed weight x2 [1280, 64] and the bias row x3 [1, 64]; it
  contracts the neighbour axis per point (a batched product into a zero accumulator), flattens (channel, slot) to 1280
  features, multiplies by the weight (again into a zero accumulator) and adds the bias row to every point. On the
  extended reals the narrowings are the identity and each product into a zero accumulator is the plain sum over the
  contracted axis, so entry (r, o) is ( ∑ j, ( ∑ k, x0[r, k, j / 20] · x1[r, k, j % 20] ) · x2[j, o] ) + x3[0, o].
-/
import proofs.«120987_j10050223472786_2_alg».proof.Proof.Gen.KernelIdeal.Skeleton
import proofs.«120987_j10050223472786_2_alg».proof.Proof.Spec
import proofs.«120987_j10050223472786_2_alg».proof.Proof.Layout
import Idealize.ShloMosaic.Lib.Pipeline.Value
import Idealize.ShloMosaic.Lib.ValueIdx
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-- The weight product into a zero accumulator, at (r, o): the sum over the 1280 features. -/
theorem lin_apply (lhs : FVec Ideal S512x1280 .bf16) (rhs : FVec Ideal S1280x64 .bf16) (r : Fin 512) (o : Fin 64) :
    matmul dot_S512x1280_S1280x64_S512x64_1_0_0_1_n_n none lhs rhs (constant S512x64 .f32 0x00000000#32) (ix2 r o)
      = ∑ q : Fin 1280, lhs (ix2 r q) * rhs (ix2 q o) := by
  refine (Ideal.matmul_constant_zero_apply _ none lhs rhs (ix2 r o)).trans ?_
  rw [← Equiv.sum_comp (contrEquiv1 dot_S512x1280_S1280x64_S512x64_1_0_0_1_n_n 1280 rfl rfl).symm]
  refine Finset.sum_congr rfl fun q _ => ?_
  congr 2
  · funext a
    match a with
    | ⟨0, _⟩ => rfl
    | ⟨1, _⟩ => exact Fin.ext ((DotDims.lhsIdx_val_of_single _ rfl _ _).trans (contrEquiv1_symm_val _ 1280 rfl rfl q))
  · funext a
    match a with
    | ⟨0, _⟩ => exact Fin.ext ((DotDims.rhsIdx_val_of_single _ rfl _ _).trans (contrEquiv1_symm_val _ 1280 rfl rfl q))
    | ⟨1, _⟩ => rfl

/-- The per-point product into a zero accumulator, at (r, c, s): the sum over the 20 neighbours. -/
theorem mix_apply (lhs : FVec Ideal S512x20x64 .bf16) (rhs : FVec Ideal S512x20x20 .bf16) (r : Fin 512) (c : Fin 64) (s : Fin 20) :
    matmul dot_S512x20x64_S512x20x20_S512x64x20_1_1_2_2_0_0 none lhs rhs (constant S512x64x20 .f32 0x00000000#32) (ix3 r c s)
      = ∑ k : Fin 20, lhs (ix3 r k c) * rhs (ix3 r k s) := by
  refine (Ideal.matmul_constant_zero_apply _ none lhs rhs (ix3 r c s)).trans ?_
  rw [← Equiv.sum_comp (contrEquiv1 dot_S512x20x64_S512x20x20_S512x64x20_1_1_2_2_0_0 20 rfl rfl).symm]
  refine Finset.sum_congr rfl fun q _ => ?_
  congr 2
  · funext a
    match a with
    | ⟨0, _⟩ => rfl
    | ⟨1, _⟩ => exact Fin.ext ((DotDims.lhsIdx_val_of_single _ rfl _ _).trans (contrEquiv1_symm_val _ 20 rfl rfl q))
    | ⟨2, _⟩ => rfl
  · funext a
    match a with
    | ⟨0, _⟩ => rfl
    | ⟨1, _⟩ => exact Fin.ext ((DotDims.rhsIdx_val_of_single _ rfl _ _).trans (contrEquiv1_symm_val _ 20 rfl rfl q))
    | ⟨2, _⟩ => rfl

/-- The bias row laid along every point. -/
theorem bias_apply {α : Type} (x : S1x64.Idx → α) (h : S1x64.Broadcasts S512x64) (r : Fin 512) (o : Fin 64) :
    broadcastTo S512x64 x h (ix2 r o) = x (ix2 (0 : Fin 1) o) := by
  refine broadcastTo_apply x h _ _ fun a => ?_
  match a with
  | ⟨0, _⟩ => rfl
  | ⟨1, _⟩ => rfl

/-- The body's stored value at (r, o) is the layer's formula on the block. -/
theorem pay_apply (x0 : FVec Ideal S512x20x64 .bf16) (x1 : FVec Ideal S512x20x20 .f32) (x2 : FVec Ideal S1280x64 .f32)
    (x3 : FVec Ideal S1x64 .f32) (r : Fin 512) (o : Fin 64) :
    Gen.k0_pay1 (F := Ideal) x0 x1 x2 x3 (ix2 r o) = PaiConv.convAt (n := 512) x0 x1 x2 x3 r o := by
  unfold Gen.k0_pay1 PaiConv.convAt
  rw [addf_apply, lin_apply, bias_apply, shapeCast_self, shapeCast_self, shapeCast_self]
  refine congrArg (· + x3 (ix2 (0 : Fin 1) o)) (Finset.sum_congr rfl fun j _ => ?_)
  rw [truncf_apply, truncf_apply, PaiConv.cast_feat, mix_apply]
  rfl

end Cert.KernelIdeal.PayValue

end
-- ==== Proof.KBlocks.lean ====
/-
  From the blocks to the whole array. The grid has 128 points; point t reads rows 512·t … 512·t + 511 of the neighbour
  array and of the matrix array, the whole weight and the whole bias row, and writes rows 512·t … 512·t + 511 of the
  output. Entry (r, o) of what point t computes is the layer's entry on 512 rows (`PayValue.pay_apply`); an entry of
  the layer reads one row of neighbours and matrices only, so on the block it equals the layer's entry (512·t + r, o)
  on all 65536 rows (`pay_blocks`). Row p of the output lies in the block of point p / 512, so the blocks cover the
  output and the array after the last point is the layer on all rows (`final`).
-/
import proofs.«120987_j10050223472786_2_alg».proof.Proof.Gen.KernelIdeal.Frame
import proofs.«120987_j10050223472786_2_alg».proof.Proof.Spec
import proofs.«120987_j10050223472786_2_alg».proof.Proof.KPay
import Idealize.ShloMosaic.Lib.Pipeline.Value
import Idealize.ShloMosaic.Lib.ValueIdx

set_option maxRecDepth 16384

noncomputable section

namespace Cert.KernelIdeal.BlockValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

theorem zero_off2 : (![0, 0] : Fin 2 → Nat) = fun _ => 0 := funext fun a => by fin_cases a <;> rfl
theorem zero_off3 : (![0, 0, 0] : Fin 3 → Nat) = fun _ => 0 := funext fun a => by fin_cases a <;> rfl

/-- At every grid point t the two row-blocked inputs and the output sit at block t on the row axis and at block 0 on
    the other axes; the weight and the bias are one block each. -/
theorem idx_facts : ∀ t : Fin cfg0.N,
      win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row r of the neighbour block at point t is row 512·t + r of the neighbour array. -/
theorem blk0_apply (c : Dev nD) (t : Fin cfg0.N) (r : Fin 512) (R : Fin 65536) (hR : R.val = 512 * t.val + r.val)
    (k : Fin 20) (ch : Fin 64) :
    (iblk m c 0 t : Vec Ideal S512x20x64 .bf16) (ix3 r k ch) = (V m c main_v12 : S65536x20x64.Idx → Ideal .bf16) (ix3 R k ch) := by
  obtain ⟨e0, e1, e2, -⟩ := idx_facts t
  unfold iblk
  rw [View.read_apply]
  show V m c main_v12 _ = V m c main_v12 _
  refine congrArg (V m c main_v12) ?_
  funext a
  apply Fin.ext
  match a with
  | ⟨0, _⟩ => show win0_0.index t (0 : Fin 3) * 512 + 1 * r.val = R.val; rw [e0, hR]; omega
  | ⟨1, _⟩ => show win0_0.index t (1 : Fin 3) * 20 + 1 * k.val = k.val; rw [e1]; omega
  | ⟨2, _⟩ => show win0_0.index t (2 : Fin 3) * 64 + 1 * ch.val = ch.val; rw [e2]; omega

/-- Row r of the matrix block at point t is row 512·t + r of the matrix array. -/
theorem blk1_apply (c : Dev nD) (t : Fin cfg0.N) (r : Fin 512) (R : Fin 65536) (hR : R.val = 512 * t.val + r.val)
    (k : Fin 20) (s : Fin 20) :
    (iblk m c 1 t : Vec Ideal S512x20x20 .f32) (ix3 r k s) = (V m c main_arg1 : S65536x20x20.Idx → Ideal .f32) (ix3 R k s) := by
  obtain ⟨-, -, -, e0, e1, e2, -⟩ := idx_facts t
  unfold iblk
  rw [View.read_apply]
  show V m c main_arg1 _ = V m c main_arg1 _
  refine congrArg (V m c main_arg1) ?_
  funext a
  apply Fin.ext
  match a with
  | ⟨0, _⟩ => show win0_1.index t (0 : Fin 3) * 512 + 1 * r.val = R.val; rw [e0, hR]; omega
  | ⟨1, _⟩ => show win0_1.index t (1 : Fin 3) * 20 + 1 * k.val = k.val; rw [e1]; omega
  | ⟨2, _⟩ => show win0_1.index t (2 : Fin 3) * 20 + 1 * s.val = s.val; rw [e2]; omega

/-- The weight's block at every point is the whole weight. -/
theorem blk2_apply (c : Dev nD) (t : Fin cfg0.N) (j : Fin 1280) (o : Fin 64) :
    (iblk m c 2 t : Vec Ideal S1280x64 .f32) (ix2 j o) = (V m c main_v13 : S1280x64.Idx → Ideal .f32) (ix2 j o) := by
  obtain ⟨-, -, -, -, -, -, e0, e1, -⟩ := idx_facts t
  unfold iblk
  rw [View.read_apply]
  show V m c main_v13 _ = V m c main_v13 _
  refine congrArg (V m c main_v13) ?_
  funext a
  apply Fin.ext
  match a with
  | ⟨0, _⟩ => show win0_2.index t (0 : Fin 2) * 1280 + 1 * j.val = j.val; rw [e0]; omega
  | ⟨1, _⟩ => show win0_2.index t (1 : Fin 2) * 64 + 1 * o.val = o.val; rw [e1]; omega

/-- The bias row's block at every point is the whole bias row. -/
theorem blk3_apply (c : Dev nD) (t : Fin cfg0.N) (z : Fin 1) (o : Fin 64) :
    (iblk m c 3 t : Vec Ideal S1x64 .f32) (ix2 z o) = (V m c main_v14 : S1x64.Idx → Ideal .f32) (ix2 z o) := by
  obtain ⟨-, -, -, -, -, -, -, -, e0, e1, -⟩ := idx_facts t
  unfold iblk
  rw [View.read_apply]
  show V m c main_v14 _ = V m c main_v14 _
  refine congrArg (V m c main_v14) ?_
  funext a
  apply Fin.ext
  match a with
  | ⟨0, _⟩ => show win0_3.index t (0 : Fin 2) * 1 + 1 * z.val = z.val; rw [e0]; omega
  | ⟨1, _⟩ => show win0_3.index t (1 : Fin 2) * 64 + 1 * o.val = o.val; rw [e1]; omega

/-- An entry of the layer depends only on the one row of neighbours and matrices it reads, on the weight and on the
    bias: two sets of arrays (of any numbers of rows) that agree there give the same entry. -/
theorem convAt_congr {n n' : Nat}
    (A : (⟨3, ![n, 20, 64]⟩ : Shape).Idx → EReal) (pm : (⟨3, ![n, 20, 20]⟩ : Shape).Idx → EReal)
    (wt : (⟨2, ![1280, 64]⟩ : Shape).Idx → EReal) (bias : (⟨2, ![1, 64]⟩ : Shape).Idx → EReal)
    (A' : (⟨3, ![n', 20, 64]⟩ : Shape).Idx → EReal) (pm' : (⟨3, ![n', 20, 20]⟩ : Shape).Idx → EReal)
    (wt' : (⟨2, ![1280, 64]⟩ : Shape).Idx → EReal) (bias' : (⟨2, ![1, 64]⟩ : Shape).Idx → EReal)
    (r : Fin n) (r' : Fin n') (o : Fin 64)
    (hA : ∀ (k : Fin 20) (ch : Fin 64), A (ix3 r k ch) = A' (ix3 r' k ch))
    (hpm : ∀ (k : Fin 20) (s : Fin 20), pm (ix3 r k s) = pm' (ix3 r' k s))
    (hwt : ∀ (j : Fin 1280) (o : Fin 64), wt (ix2 j o) = wt' (ix2 j o))
    (hb : ∀ (z : Fin 1) (o : Fin 64), bias (ix2 z o) = bias' (ix2 z o)) :
    PaiConv.convAt A pm wt bias r o = PaiConv.convAt A' pm' wt' bias' r' o := by
  unfold PaiConv.convAt
  simp only [hA, hpm, hwt, hb]

/-- The layer over the whole arrays as they stand when the kernel starts. -/
abbrev G (c : Dev nD) : S65536x64.Idx → EReal :=
  PaiConv.convArr (n := 65536) (V m c main_v12) (V m c main_arg1) (V m c main_v13) (V m c main_v14)

/-- Entry (r, o) of what point t computes is entry (512·t + r, o) of the layer over the whole arrays. -/
theorem pay_blocks (c : Dev nD) (t : Fin cfg0.N) (r : Fin 512) (o : Fin 64) (R : Fin 65536) (hR : R.val = 512 * t.val + r.val) :
    k0_pay1 (F := Ideal) (iblk m c 0 t) (iblk m c 1 t) (iblk m c 2 t) (iblk m c 3 t) (ix2 r o) = G m c (ix2 R o) :=
  (Cert.KernelIdeal.PayValue.pay_apply (iblk m c 0 t) (iblk m c 1 t) (iblk m c 2 t) (iblk m c 3 t) r o).trans
    (convAt_congr _ _ _ _ _ _ _ _ r R o (blk0_apply m c t r R hR) (blk1_apply m c t r R hR) (blk2_apply m c t) (blk3_apply m c t))

/-- What point t writes back is block t of the layer over the whole arrays. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold out0_4
  rw [View.canon_unit_zero zero_off2]
  simp only [View.ld_unit_zero (S := S512x20x64) zero_off3, View.ld_unit_zero (S := S512x20x20) zero_off3,
    View.ld_unit_zero (S := S1280x64) zero_off2, View.ld_unit_zero (S := S1x64) zero_off2]
  obtain ⟨-, -, -, -, -, -, -, -, -, -, e0, e1⟩ := idx_facts t
  have hN : grid0.N = 128 := N_0
  have ht : t.val < 128 := hN ▸ t.isLt
  funext y
  show k0_pay1 (F := Ideal) (iblk m c 0 t) (iblk m c 1 t) (iblk m c 2 t) (iblk m c 3 t) (y : S512x64.Idx) = G m c (((cfg0.win 4).blk t).view.emb y)
  have hy0 : ((y : S512x64.Idx) 0).val < 512 := idx2_lt0 (y : S512x64.Idx)
  have hy1 : ((y : S512x64.Idx) 1).val < 64 := idx2_lt1 (y : S512x64.Idx)
  have hemb : ((cfg0.win 4).blk t).view.emb y
      = (ix2 (⟨512 * t.val + ((y : S512x64.Idx) 0).val, by omega⟩ : Fin 65536) ((y : S512x64.Idx) 1) : S65536x64.Idx) := by
    funext a
    apply Fin.ext
    match a with
    | ⟨0, _⟩ => show win0_4.index t (0 : Fin 2) * 512 + 1 * ((y : S512x64.Idx) 0).val = 512 * t.val + ((y : S512x64.Idx) 0).val; rw [e0]; omega
    | ⟨1, _⟩ => show win0_4.index t (1 : Fin 2) * 64 + 1 * ((y : S512x64.Idx) 1).val = ((y : S512x64.Idx) 1).val; rw [e1]; omega
  rw [hemb]
  exact (congrArg (k0_pay1 (F := Ideal) (iblk m c 0 t) (iblk m c 1 t) (iblk m c 2 t) (iblk m c 3 t)) (eq_ix2 (y : S512x64.Idx))).trans
    (pay_blocks m c t ((y : S512x64.Idx) 0) ((y : S512x64.Idx) 1) _ rfl)

/-- An index of the output array is in point t's block iff each coordinate is in the block's range on its axis. -/
theorem mem_blk (t : Fin cfg0.N) (i : S65536x64.Idx) :
    i ∈ ((cfg0.win 4).blk t).view.set ↔ ∀ a : Fin 2, win0_4.index t a * S512x64.size a ≤ (i a).val ∧ (i a).val < win0_4.index t a * S512x64.size a + S512x64.size a := by
  show i ∈ ((View.whole main_v15).slice (win0_4.rect t)).set ↔ _
  rw [View.set_slice_whole, Rect.mem_set_unit]
  exact Iff.rfl

/-- Every row p of the output is in the block of point p / 512. -/
theorem cover (i : S65536x64.Idx) : ∃ t : Fin cfg0.N, (cfg0.win 4).flush t = true ∧ i ∈ ((cfg0.win 4).blk t).view.set := by
  have hN : grid0.N = 128 := N_0
  have hi0 : (i 0).val < 65536 := idx2_lt0 i
  have hi1 : (i 1).val < 64 := idx2_lt1 i
  have hq : (i 0).val / 512 < grid0.N := by rw [hN]; omega
  refine ⟨⟨(i 0).val / 512, hq⟩, flush0_4 _, ?_⟩
  rw [mem_blk]
  obtain ⟨-, -, -, -, -, -, -, -, -, -, e0, e1⟩ := idx_facts ⟨(i 0).val / 512, hq⟩
  intro a
  match a with
  | ⟨0, _⟩ => show win0_4.index ⟨(i 0).val / 512, hq⟩ (0 : Fin 2) * 512 ≤ (i 0).val ∧ (i 0).val < win0_4.index ⟨(i 0).val / 512, hq⟩ (0 : Fin 2) * 512 + 512; rw [e0]; show (i 0).val / 512 * 512 ≤ (i 0).val ∧ (i 0).val < (i 0).val / 512 * 512 + 512; omega
  | ⟨1, _⟩ => show win0_4.index ⟨(i 0).val / 512, hq⟩ (1 : Fin 2) * 64 ≤ (i 1).val ∧ (i 1).val < win0_4.index ⟨(i 0).val / 512, hq⟩ (1 : Fin 2) * 64 + 64; rw [e1]; omega

/-- The output array after the run is the layer over the whole arrays. -/
theorem final (c : Dev nD) : (dats m 0 c).arrAt 4 cfg0.N
    = PaiConv.convArr (n := 65536) (V m c main_v12) (V m c main_arg1) (V m c main_v13) (V m c main_v14) :=
  (dats m 0 c).arrAt_eq_of_cover 4 (G m c) (fun t _ => flushed_eq m c t) cover

end Cert.KernelIdeal.BlockValue

end
-- ==== Proof.KRun.lean ====
/-
  The idealized kernel program's run, with its result named. The region's [65536, 64] output array is tiled by the 128
  blocks the body writes, each the layer's formula on its 512 points, so the array is that formula over the arrays the
  region reads: the rows gathered from the interleaved table, the matrices, the transposed weight and the bias row. The
  operations after the region normalise it. Composed, the result buffer holds `result`, one function of the argument
  arrays as launched, and no argument array is changed.
-/
import proofs.«120987_j10050223472786_2_alg».proof.Proof.Gen.KernelIdeal.Frame
import proofs.«120987_j10050223472786_2_alg».proof.Proof.Terms
import proofs.«120987_j10050223472786_2_alg».proof.Proof.Spec
import proofs.«120987_j10050223472786_2_alg».proof.Proof.KHost
import proofs.«120987_j10050223472786_2_alg».proof.Proof.KBlocks

noncomputable section

namespace Cert.KernelIdeal.RunValue

open Cert.KernelIdeal Cert.KernelIdeal.Gen
open Idealize.ShloMosaic Idealize.ShloMosaic.TcCoe Idealize.SL.Sem Idealize.ShloMosaic.Pipeline

variable (m : (ℓ : Loc nD τ sig) → Buf (Elt Ideal) ℓ) (ρ : Dev nD → PrngReg)

/-- The program's result as one function of the argument arrays. -/
def result (c : Dev nD) : S16x64x4096.Idx → Ideal .f32 :=
  PaiConv.tail (F := Ideal)
    (PaiConv.convArr (n := 65536)
      (PaiConv.gatheredInterleaved (F := Ideal) (m ((c : Thread nD τ).loc main_arg0)) (m ((c : Thread nD τ).loc main_arg6)))
      (m ((c : Thread nD τ).loc main_arg1))
      (PaiConv.wT (F := Ideal) (m ((c : Thread nD τ).loc main_arg2)))
      (PaiConv.biasRow (F := Ideal) (m ((c : Thread nD τ).loc main_arg3))))
    (m ((c : Thread nD τ).loc main_arg4)) (m ((c : Thread nD τ).loc main_arg5))

/-- What the lines after the region leave in the result buffer. -/
theorem tail_result (c : Dev nD) :
    @Eq (S16x64x4096.Idx → Ideal .f32) (Pipeline.afterTail₀ cfgs (dats m) 0 (V0 m) [hostOps1, hostOps1_1, hostOps1_2] c main_v35)
      (result m c) := by
  rw [HostValue.tail_eq m c, BlockValue.final m c, HostValue.V_v12 m c, HostValue.V_v13 m c, HostValue.V_v14 m c, V_main_arg1 m c]
  rfl

/-- Every weakly fair execution ends with the result buffer at \`result\` and the arguments as launched. -/
theorem run : θ_run defs (onTc (τ := τ) (main (F := Ideal))) ⟨m, fun _ => 0, ρ⟩ (fun r => ∀ c : Dev nD,
      r.2.mem ((c.tc : Thread nD τ).loc main_v35) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v35 (Pipeline.mem_restRefs_of main_v35 (by decide) (by decide))).trans (tail_result m c),
      (((h c).2 main_arg0 (Pipeline.mem_restRefs_of main_arg0 (by decide) (by decide))).trans (W_main_arg0 m (dats m) c)),
      ((h c).1 1).trans ((((dats m) 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.RunValue

end
-- ==== Proof.RefRun.lean ====
/-
  The reference program's run. @main calls the private function @_var (the biased variance of every channel over the
  65536 points), which itself calls @_where (the select that guards a count that is not positive); a call executes the
  callee's body on the operands, each value of the body in a buffer of that call's own, so @main is one straight line of
  68 host operations: its own forty-five and, at the call, @_var's twenty and @_where's three. From any memory with zero
  counters every weakly fair execution terminates with the result buffer at the operations' composed term of the
  arguments' launch contents — the vocabulary's `PaiConv.tail (PaiConv.refPre …) …`, operation for operation — and
  with the seven arguments unchanged.
-/
import proofs.«120987_j10050223472786_2_alg».proof.Proof.Gen.ReferenceIdeal
import proofs.«120987_j10050223472786_2_alg».proof.Proof.Terms
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 68 operations in order, the two calls unfolded. First thirty-one of @main's own: the row table, the
    neighbour numbers wrapped once by 65536, the gather, the interleaving of the channels, the two contractions, the
    bias, the array back at [16, 64, 4096] (`main_v21`), its per-channel mean, the zero correction (`main_c_2`). Then
    @_var's twenty over `main_call0`'s buffers, on the operands `main_v21` and `main_c_2`: the mean again, the squared
    deviations, their sum, the count 65536 − 0, the quotient, the comparison of the count with zero. Then @_where's
    three over `main_call0.call0`'s: the not-a-number converted to its own type, broadcast, and the select, whose
    buffer `main_v26` is the call's result. Then @main's last fourteen: the deviations, ε, the reciprocal root, the
    scale and the shift. -/
abbrev ops : List (HloOp τ sig (Elt F)) :=
  [ StableHlo.unary main_arg0 main_v0 ((transpose S16x4096x64 [0, 2, 1] · transposes_S16x64x4096_S16x4096x64_0_2_1) : (⟨S16x64x4096, .f32⟩ : BufTy).Contents (Elt F) → (⟨S16x4096x64, .f32⟩ : BufTy).Contents (Elt F)),
    StableHlo.reshape main_v0 main_v1 rfl shapeCasts_S16x4096x64_S65536x64,
    StableHlo.nullary main_c (constantI S_ 32 0#32),
    StableHlo.unary main_c main_v2 (broadcastInDim S65536x20 ![] bcast_S_S65536x20 : (⟨S_, .i32⟩ : BufTy).Contents (Elt F) → (⟨S65536x20, .i32⟩ : BufTy).Contents (Elt F)),
    StableHlo.binary main_arg6 main_v2 main_v3 (cmpi .slt : (⟨S65536x20, .i32⟩ : BufTy).Contents (Elt F) → (⟨S65536x20, .i32⟩ : BufTy).Contents (Elt F) → (⟨S65536x20, .i1⟩ : BufTy).Contents (Elt F)),
    StableHlo.nullary main_c_0 (constantI S_ 32 65536#32),
    StableHlo.unary main_c_0 main_v4 (broadcastInDim S65536x20 ![] bcast_S_S65536x20 : (⟨S_, .i32⟩ : BufTy).Contents (Elt F) → (⟨S65536x20, .i32⟩ : BufTy).Contents (Elt F)),
    StableHlo.binary main_arg6 main_v4 main_v5 (addi : (⟨S65536x20, .i32⟩ : BufTy).Contents (Elt F) → (⟨S65536x20, .i32⟩ : BufTy).Contents (Elt F) → (⟨S65536x20, .i32⟩ : BufTy).Contents (Elt F)),
    StableHlo.ternary main_v3 main_v5 main_arg6 main_v6 (select : (⟨S65536x20, .i1⟩ : BufTy).Contents (Elt F) → (⟨S65536x20, .i32⟩ : BufTy).Contents (Elt F) → (⟨S65536x20, .i32⟩ : BufTy).Contents (Elt F) → (⟨S65536x20, .i32⟩ : BufTy).Contents (Elt F)),
    StableHlo.unary main_v6 main_v7 (broadcastInDim S65536x20x1 ![0, 1] bcast_S65536x20_S65536x20x1_0_1 : (⟨S65536x20, .i32⟩ : BufTy).Contents (Elt F) → (⟨S65536x20x1, .i32⟩ : BufTy).Contents (Elt F)),
    StableHlo.binary main_v1 main_v7 main_v8 ((fun x i => Host.gather gather_S65536x64_S65536x20x1_S65536x20x64_2_0_n_n_0_2_164 x i) : (⟨S65536x64, .f32⟩ : BufTy).Contents (Elt F) → (⟨S65536x20x1, .i32⟩ : BufTy).Contents (Elt F) → (⟨S65536x20x64, .f32⟩ : BufTy).Contents (Elt F)),
    StableHlo.unary main_v8 main_v9 ((transpose S65536x64x20 [0, 2, 1] · transposes_S65536x20x64_S65536x64x20_0_2_1) : (⟨S65536x20x64, .f32⟩ : BufTy).Contents (Elt F) → (⟨S65536x64x20, .f32⟩ : BufTy).Contents (Elt F)),
    StableHlo.reshape main_v9 main_v10 rfl shapeCasts_S65536x64x20_S65536x4x16x20,
    StableHlo.unary main_v10 main_v11 ((transpose S65536x16x4x20 [0, 2, 1, 3] · transposes_S65536x4x16x20_S65536x16x4x20_0_2_1_3) : (⟨S65536x4x16x20, .f32⟩ : BufTy).Contents (Elt F) → (⟨S65536x16x4x20, .f32⟩ : BufTy).Contents (Elt F)),
    StableHlo.reshape main_v11 main_v12 rfl shapeCasts_S65536x16x4x20_S65536x64x20,
    StableHlo.binary main_v12 main_arg1 main_v13 ((fun l r => Host.dotGeneral dot_S65536x64x20_S65536x20x20_S65536x64x20_2_1_1_2_0_0 none l r) : (⟨S65536x64x20, .f32⟩ : BufTy).Contents (Elt F) → (⟨S65536x20x20, .f32⟩ : BufTy).Contents (Elt F) → (⟨S65536x64x20, .f32⟩ : BufTy).Contents (Elt F)),
    StableHlo.reshape main_v13 main_v14 rfl shapeCasts_S65536x64x20_S65536x1280,
    StableHlo.unary main_arg2 main_v15 ((transpose S1280x64 [1, 0] · transposes_S64x1280_S1280x64_1_0) : (⟨S64x1280, .f32⟩ : BufTy).Contents (Elt F) → (⟨S1280x64, .f32⟩ : BufTy).Contents (Elt F)),
    StableHlo.binary main_v14 main_v15 main_v16 ((fun l r => Host.dotGeneral dot_S65536x1280_S1280x64_S65536x64_1_0_0_1_n_n none l r) : (⟨S65536x1280, .f32⟩ : BufTy).Contents (Elt F) → (⟨S1280x64, .f32⟩ : BufTy).Contents (Elt F) → (⟨S65536x64, .f32⟩ : BufTy).Contents (Elt F)),
    StableHlo.unary main_arg3 main_v17 (broadcastInDim S1x64 ![1] bcast_S64_S1x64_1 : (⟨S64, .f32⟩ : BufTy).Contents (Elt F) → (⟨S1x64, .f32⟩ : BufTy).Contents (Elt F)),
    StableHlo.unary main_v17 main_v18 (broadcastInDim S65536x64 ![0, 1] bcast_S1x64_S65536x64_0_1 : (⟨S1x64, .f32⟩ : BufTy).Contents (Elt F) → (⟨S65536x64, .f32⟩ : BufTy).Contents (Elt F)),
    StableHlo.binary main_v16 main_v18 main_v19 (addf : (⟨S65536x64, .f32⟩ : BufTy).Contents (Elt F) → (⟨S65536x64, .f32⟩ : BufTy).Contents (Elt F) → (⟨S65536x64, .f32⟩ : BufTy).Contents (Elt F)),
    StableHlo.reshape main_v19 main_v20 rfl shapeCasts_S65536x64_S16x4096x64,
    StableHlo.unary main_v20 main_v21 ((transpose S16x64x4096 [0, 2, 1] · transposes_S16x4096x64_S16x64x4096_0_2_1) : (⟨S16x4096x64, .f32⟩ : BufTy).Contents (Elt F) → (⟨S16x64x4096, .f32⟩ : BufTy).Contents (Elt F)),
    StableHlo.nullary main_cst (constant S_ .f32 0x00000000#32),
    StableHlo.binary main_v21 main_cst main_v22 ((fun x v => Host.reduceAdd x v reducesTo_S16x64x4096_S64_d0_2 h_S_) : (⟨S16x64x4096, .f32⟩ : BufTy).Contents (Elt F) → (⟨S_, .f32⟩ : BufTy).Contents (Elt F) → (⟨S64, .f32⟩ : BufTy).Contents (Elt F)),
    StableHlo.unary main_v22 main_v23 (broadcastInDim S1x64x1 ![1] bcast_S64_S1x64x1_1 : (⟨S64, .f32⟩ : BufTy).Contents (Elt F) → (⟨S1x64x1, .f32⟩ : BufTy).Contents (Elt F)),
    StableHlo.nullary main_cst_1 (constant S_ .f32 0x47800000#32),
    StableHlo.unary main_cst_1 main_v24 (broadcastInDim S1x64x1 ![] bcast_S_S1x64x1 : (⟨S_, .f32⟩ : BufTy).Contents (Elt F) → (⟨S1x64x1, .f32⟩ : BufTy).Contents (Elt F)),
    StableHlo.binary main_v23 main_v24 main_v25 (Host.divf : (⟨S1x64x1, .f32⟩ : BufTy).Contents (Elt F) → (⟨S1x64x1, .f32⟩ : BufTy).Contents (Elt F) → (⟨S1x64x1, .f32⟩ : BufTy).Contents (Elt F)),
    StableHlo.nullary main_c_2 (constantI S_ 32 0#32),
    TRef.nullary main_call0.cst (constant S_ .f32 0x00000000#32),
    TRef.binary (.of main_v21 : TRef sig ⟨S16x64x4096, .f32⟩) main_call0.cst main_call0.v0 (fun x v => Host.reduceAdd x v reducesTo_S16x64x4096_S64_d0_2 h_S_),
    TRef.unary main_call0.v0 main_call0.v1 (broadcastInDim S1x64x1 ![1] bcast_S64_S1x64x1_1),
    TRef.nullary main_call0.cst_0 (constant S_ .f32 0x47800000#32),
    TRef.unary main_call0.cst_0 main_call0.v2 (broadcastInDim S1x64x1 ![] bcast_S_S1x64x1),
    TRef.binary main_call0.v1 main_call0.v2 main_call0.v3 Host.divf,
    TRef.unary main_call0.v3 main_call0.v4 (broadcastInDim S16x64x4096 ![0, 1, 2] bcast_S1x64x1_S16x64x4096_0_1_2),
    TRef.binary (.of main_v21 : TRef sig ⟨S16x64x4096, .f32⟩) main_call0.v4 main_call0.v5 subf,
    TRef.binary main_call0.v5 main_call0.v5 main_call0.v6 mulf,
    TRef.unary (.of main_c_2 : TRef sig ⟨S_, .i32⟩) main_call0.v7 (sitofp .f32),
    TRef.nullary main_call0.cst_1 (constant S_ .f32 0x47800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S16x64x4096_S64_d0_2 h_S_),
    TRef.unary main_call0.v9 main_call0.v10 (broadcastInDim S1x64x1 ![1] bcast_S64_S1x64x1_1),
    TRef.unary main_call0.v8 main_call0.v11 (broadcastInDim S1x64x1 ![] bcast_S_S1x64x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x64x1 ![] bcast_S_S1x64x1),
    TRef.ternary main_call0.v13 main_call0.v12 main_call0.call0.v1 main_call0.call0.v2 (fun p a b => select (broadcastInDim S1x64x1 ![] bcast_S_S1x64x1 p) a b),
    StableHlo.unary main_v25 main_v27 (broadcastInDim S16x64x4096 ![0, 1, 2] bcast_S1x64x1_S16x64x4096_0_1_2 : (⟨S1x64x1, .f32⟩ : BufTy).Contents (Elt F) → (⟨S16x64x4096, .f32⟩ : BufTy).Contents (Elt F)),
    StableHlo.binary main_v21 main_v27 main_v28 (subf : (⟨S16x64x4096, .f32⟩ : BufTy).Contents (Elt F) → (⟨S16x64x4096, .f32⟩ : BufTy).Contents (Elt F) → (⟨S16x64x4096, .f32⟩ : BufTy).Contents (Elt F)),
    StableHlo.nullary main_cst_3 (constant S_ .f32 0x3727C5AC#32),
    StableHlo.unary main_cst_3 main_v29 (broadcastInDim S1x64x1 ![] bcast_S_S1x64x1 : (⟨S_, .f32⟩ : BufTy).Contents (Elt F) → (⟨S1x64x1, .f32⟩ : BufTy).Contents (Elt F)),
    StableHlo.binary main_v26 main_v29 main_v30 (addf : (⟨S1x64x1, .f32⟩ : BufTy).Contents (Elt F) → (⟨S1x64x1, .f32⟩ : BufTy).Contents (Elt F) → (⟨S1x64x1, .f32⟩ : BufTy).Contents (Elt F)),
    StableHlo.unary main_v30 main_v31 (Host.rsqrt : (⟨S1x64x1, .f32⟩ : BufTy).Contents (Elt F) → (⟨S1x64x1, .f32⟩ : BufTy).Contents (Elt F)),
    StableHlo.unary main_v31 main_v32 (broadcastInDim S16x64x4096 ![0, 1, 2] bcast_S1x64x1_S16x64x4096_0_1_2 : (⟨S1x64x1, .f32⟩ : BufTy).Contents (Elt F) → (⟨S16x64x4096, .f32⟩ : BufTy).Contents (Elt F)),
    StableHlo.binary main_v28 main_v32 main_v33 (mulf : (⟨S16x64x4096, .f32⟩ : BufTy).Contents (Elt F) → (⟨S16x64x4096, .f32⟩ : BufTy).Contents (Elt F) → (⟨S16x64x4096, .f32⟩ : BufTy).Contents (Elt F)),
    StableHlo.unary main_arg4 main_v34 (broadcastInDim S1x64x1 ![1] bcast_S64_S1x64x1_1 : (⟨S64, .f32⟩ : BufTy).Contents (Elt F) → (⟨S1x64x1, .f32⟩ : BufTy).Contents (Elt F)),
    StableHlo.unary main_v34 main_v35 (broadcastInDim S16x64x4096 ![0, 1, 2] bcast_S1x64x1_S16x64x4096_0_1_2 : (⟨S1x64x1, .f32⟩ : BufTy).Contents (Elt F) → (⟨S16x64x4096, .f32⟩ : BufTy).Contents (Elt F)),
    StableHlo.binary main_v33 main_v35 main_v36 (mulf : (⟨S16x64x4096, .f32⟩ : BufTy).Contents (Elt F) → (⟨S16x64x4096, .f32⟩ : BufTy).Contents (Elt F) → (⟨S16x64x4096, .f32⟩ : BufTy).Contents (Elt F)),
    StableHlo.unary main_arg5 main_v37 (broadcastInDim S1x64x1 ![1] bcast_S64_S1x64x1_1 : (⟨S64, .f32⟩ : BufTy).Contents (Elt F) → (⟨S1x64x1, .f32⟩ : BufTy).Contents (Elt F)),
    StableHlo.unary main_v37 main_v38 (broadcastInDim S16x64x4096 ![0, 1, 2] bcast_S1x64x1_S16x64x4096_0_1_2 : (⟨S1x64x1, .f32⟩ : BufTy).Contents (Elt F) → (⟨S16x64x4096, .f32⟩ : BufTy).Contents (Elt F)),
    StableHlo.binary main_v36 main_v38 main_v39 (addf : (⟨S16x64x4096, .f32⟩ : BufTy).Contents (Elt F) → (⟨S16x64x4096, .f32⟩ : BufTy).Contents (Elt F) → (⟨S16x64x4096, .f32⟩ : BufTy).Contents (Elt F)) ]

/-- @main is that straight line: a call is the callee's body applied to the operands' typed references and the call's
    record, sequencing re-associates (a bind of a bind of steps is the steps in order) and a record's field at a literal
    record is the buffer named there, all by computation. -/
theorem main_eq (c : Dev nD) : main (F := F) c = seq ops := rfl

/-- No TensorCore buffer of the signature is scoped: every buffer is a tensor value's. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    reshape_bufs_sub .., unary_bufs_sub .., reshape_bufs_sub .., binary_bufs_sub .., reshape_bufs_sub .., unary_bufs_sub ..,
    binary_bufs_sub .., unary_bufs_sub .., unary_bufs_sub .., binary_bufs_sub .., reshape_bufs_sub .., unary_bufs_sub ..,
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

attribute [local irreducible] Host.reduceAdd Host.gather Host.rsqrt Host.divf in
set_option maxRecDepth 8192 in
/-- The fold at the result buffer, from any contents `V`: each operation's result at its own buffer is its function of
    its operands' contents, and at any other buffer what was there, so the fold at `main_v39` unrolls to the composed
    term of the seven arguments' contents. That term is `PaiConv.tail (PaiConv.refPre …) …` up to the names of the shape
    facts (proofs of one proposition) and the unfolding of the vocabulary's definitions: the reference's mean
    `main_v25` and @_var's `main_call0.v3` are the same term `chMean` of the same array, the variance with its guard is
    `chVar`. The sums, the gather, the reciprocal root and the quotient are kept folded meanwhile: the equation never
    looks inside them. -/
theorem out_eq (V : Valuation τ sig (Elt F)) :
    after ops V (main_v39 : DevRef τ sig)
      = PaiConv.tail (PaiConv.refPre (V (main_arg0 : DevRef τ sig)) (V (main_arg1 : DevRef τ sig)) (V (main_arg2 : DevRef τ sig)) (V (main_arg3 : DevRef τ sig)) (V (main_arg6 : DevRef τ sig)))
          (V (main_arg4 : DevRef τ sig)) (V (main_arg5 : DevRef τ sig)) := by
  after_results_simp
  rfl

/-! No operation writes an argument's buffer: the fold leaves each where it was. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

/-- On every device, for any float values, from any memory with zero counters: every weakly fair execution of
    @main terminates with the result at the normalisation `PaiConv.tail` of the reference's [65536, 64] array
    `PaiConv.refPre` of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = PaiConv.tail (PaiConv.refPre (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v39).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_seq scopedRefs_eq scopedSems_eq defs main (fun _ => ops) main_eq (fun _ => ops_sub) m ρ)

end Cert.ReferenceIdeal.HandRun

end
-- ==== Proof.RefValue.lean ====
/-
  The reference's array before normalisation, read at an index. Its [65536, 64] array is
  dot(flatten(dot(interleave(gathered), matrices)), weightᵀ) + bias; on the extended reals each host product is the plain
  sum over its contracted axis, the flattening reads (j / 20, j % 20), and the interleaved gathered rows are the rows
  gathered from the interleaved table. So it is the layer's formula over the interleaved-table gather: the very array
  the kernel's blocks tile.
-/
import proofs.«120987_j10050223472786_2_alg».proof.Proof.Terms
import proofs.«120987_j10050223472786_2_alg».proof.Proof.Spec
import proofs.«120987_j10050223472786_2_alg».proof.Proof.Layout
import Idealize.ShloMosaic.Lib.Pipeline.Value
import Idealize.ShloMosaic.Lib.ValueIdx
import Idealize.ShloMosaic.PureOps.Ideal.Laws

noncomputable section

open scoped BigOperators

namespace PaiConv

open Idealize.ShloMosaic Idealize.ShloMosaic.ValueIdx

/-- The host's weight product at (p, o): the sum over the 1280 features. -/
theorem dotLin_apply (lhs : FVec Ideal S65536x1280 .f32) (rhs : FVec Ideal S1280x64 .f32) (p : Fin 65536) (o : Fin 64) :
    Host.dotGeneral dotLin none lhs rhs (ix2 p o) = ∑ q : Fin 1280, lhs (ix2 p q) * rhs (ix2 q o) := by
  unfold Host.dotGeneral
  refine (Ideal.dotGeneral_apply dotLin none _ lhs rhs (ix2 p o)).trans ?_
  rw [← Equiv.sum_comp (contrEquiv1 dotLin 1280 rfl rfl).symm]
  refine Finset.sum_congr rfl fun q _ => ?_
  congr 2
  · funext a
    match a with
    | ⟨0, _⟩ => rfl
    | ⟨1, _⟩ => exact Fin.ext ((DotDims.lhsIdx_val_of_single _ rfl _ _).trans (contrEquiv1_symm_val _ 1280 rfl rfl q))
  · funext a
    match a with
    | ⟨0, _⟩ => exact Fin.ext ((DotDims.rhsIdx_val_of_single _ rfl _ _).trans (contrEquiv1_symm_val _ 1280 rfl rfl q))
    | ⟨1, _⟩ => rfl

/-- The host's per-point product at (p, c, s): the sum over the 20 neighbours. -/
theorem dotMix_apply (lhs : FVec Ideal S65536x64x20 .f32) (rhs : FVec Ideal S65536x20x20 .f32) (p : Fin 65536) (c : Fin 64) (s : Fin 20) :
    Host.dotGeneral dotMix none lhs rhs (ix3 p c s) = ∑ k : Fin 20, lhs (ix3 p c k) * rhs (ix3 p k s) := by
  unfold Host.dotGeneral
  refine (Ideal.dotGeneral_apply dotMix none _ lhs rhs (ix3 p c s)).trans ?_
  rw [← Equiv.sum_comp (contrEquiv1 dotMix 20 rfl rfl).symm]
  refine Finset.sum_congr rfl fun q _ => ?_
  congr 2
  · funext a
    match a with
    | ⟨0, _⟩ => rfl
    | ⟨1, _⟩ => rfl
    | ⟨2, _⟩ => exact Fin.ext ((DotDims.lhsIdx_val_of_single _ rfl _ _).trans (contrEquiv1_symm_val _ 20 rfl rfl q))
  · funext a
    match a with
    | ⟨0, _⟩ => rfl
    | ⟨1, _⟩ => exact Fin.ext ((DotDims.rhsIdx_val_of_single _ rfl _ _).trans (contrEquiv1_symm_val _ 20 rfl rfl q))
    | ⟨2, _⟩ => rfl

/-- The bias broadcast to every point, and the bias as a row, both read the bias at the output channel. -/
theorem bias_bcast_apply {α : Type} (a3 : S64.Idx → α) (p : Fin 65536) (o : Fin 64) :
    broadcastInDim S65536x64 ![0, 1] bc_b2 (broadcastInDim S1x64 ![1] bc_b1 a3) (ix2 p o) = a3 (ix1 o) := by
  refine (broadcastInDim_apply _ bc_b2 _ _ (ix2 (0 : Fin 1) o) fun a => ?_).trans (broadcastInDim_apply _ bc_b1 _ _ (ix1 o) fun a => ?_)
  · match a with
    | ⟨0, _⟩ => rfl
    | ⟨1, _⟩ => rfl
  · match a with
    | ⟨0, _⟩ => rfl

theorem biasRow_apply (a3 : FVec Ideal S64 .f32) (o : Fin 64) : biasRow a3 (ix2 (0 : Fin 1) o) = a3 (ix1 o) := by
  unfold biasRow
  refine shapeCast_apply _ sc_b _ _ ?_
  rw [Shape.rowMajor_val_one, Shape.rowMajor_val_two]
  show o.val = 0 * 64 + o.val
  omega

/-- The reference's array is the layer's formula over the rows gathered from the interleaved table. -/
theorem refPre_eq (a0 : FVec Ideal S16x64x4096 .f32) (a1 : FVec Ideal S65536x20x20 .f32) (a2 : FVec Ideal S64x1280 .f32)
    (a3 : FVec Ideal S64 .f32) (a6 : IVec S65536x20 32) :
    refPre a0 a1 a2 a3 a6 = convArr (n := 65536) (gatheredInterleaved a0 a6) a1 (wT a2) (biasRow a3) := by
  funext i
  obtain ⟨p, o, rfl⟩ : ∃ (p : Fin 65536) (o : Fin 64), i = ix2 p o := ⟨i 0, i 1, eq_ix2 i⟩
  rw [convArr_ix2]
  unfold refPre convAt
  rw [addf_apply, dotLin_apply, bias_bcast_apply, biasRow_apply]
  refine congrArg (· + a3 (ix1 o)) (Finset.sum_congr rfl fun j _ => ?_)
  rw [cast_feat, dotMix_apply]
  refine congrArg (· * wT a2 (ix2 j o)) (Finset.sum_congr rfl fun k _ => ?_)
  rw [interleave_gathered]

end PaiConv

end
-- ==== Proof.lean ====
/-
  The certificate. A point-cloud convolution layer: for each of 65536 points, gather the channel rows of its 20
  neighbours, interleave the 64 channels in four groups of sixteen, mix the neighbour axis with the point's 20 × 20
  matrix, flatten to 1280 features, apply a linear map to 64 channels with bias, and batch-normalise each channel over
  all points.

  The kernel program interleaves and narrows the row table once, gathers from it, and computes mixing, linear map and
  bias block by block (128 blocks of 512 points); the reference gathers from the plain table, interleaves the gathered
  array, and computes the same two products on the whole arrays. On the extended reals a narrowing is the identity and
  every product into a zero accumulator is the plain sum over the contracted axis; the gather only selects rows, so it
  commutes with a permutation of the columns. Both programs therefore hold, before normalisation, the same function of
  the arguments, entry by entry — the same sums of the same products in the same order, so nothing about finiteness is
  used — and both apply the same normalisation to it. No constant is renamed: the idealization is the kernel's own text.
-/
import proofs.«120987_j10050223472786_2_alg».proof.Defs
import proofs.«120987_j10050223472786_2_alg».proof.Proof.Gen.Kernel
import proofs.«120987_j10050223472786_2_alg».proof.Proof.Gen.Kernel.Frame
import proofs.«120987_j10050223472786_2_alg».proof.Proof.Gen.KernelIdeal
import proofs.«120987_j10050223472786_2_alg».proof.Proof.Gen.KernelIdeal.Frame
import proofs.«120987_j10050223472786_2_alg».proof.Proof.Gen.ReferenceIdeal
import proofs.«120987_j10050223472786_2_alg».proof.Proof.Gen.Pre_finite_inputs
import proofs.«120987_j10050223472786_2_alg».proof.Proof.KRun
import proofs.«120987_j10050223472786_2_alg».proof.Proof.RefRun
import proofs.«120987_j10050223472786_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_p : Cert.frame_Kernel := fun m ρ _ => Cert.Kernel.Gen.frame m ρ

/-- So does its idealization. -/
theorem frame_pi : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- Nothing was rewritten, so there is nothing to preserve. -/
theorem preserves : Cert.preserves_Kernel_KernelIdeal := trivial

/-- From memories agreeing on the arguments both programs end at the same array: the reference's array before
    normalisation is the layer's formula over the rows gathered from the interleaved table, which is what the kernel's
    blocks tile, and the normalisation is the same function on both sides. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.HandRun.run (F := Ideal) m' ρ')
  rw [PaiConv.refPre_eq, (hagree c).1, (hagree c).2.1, (hagree c).2.2.1, (hagree c).2.2.2.1, (hagree c).2.2.2.2.1,
    (hagree c).2.2.2.2.2.1, (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
